-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000 : Shape := ⟨1, ![320000]⟩
abbrev S512x128 : Shape := ⟨2, ![512, 128]⟩
abbrev S128 : Shape := ⟨1, ![128]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000 : S_.BroadcastsInDim S320000 (![] : Fin 0 → Fin S320000.rank)
  reducesTo_S320000_S_d0 : S320000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg10 : FVec F S128 .f32) (main_arg11 : FVec F S128x128 .f32) (main_arg12 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_v33

def fn {F : FTy → Type} [FloatOps F] (main_arg0 : FVec F S10000x128 .f32) (main_arg1 : IVec S320000 32) (main_arg2 : IVec S320000 32) (main_arg3 : IVec S320000 32) (main_arg4 : FVec F S320000 .f32) (main_arg5 : FVec F S512x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000 .f32 := Host.absf main_arg4
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S512x128 .f32 := Host.absf main_arg5
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_v13 main_v16
-- ==== Kernel.lean ====
abbrev S10000x128 : Shape := ⟨2, ![10000, 128]⟩
abbrev S320000 : Shape := ⟨1, ![320000]⟩
abbrev S512x128 : Shape := ⟨2, ![512, 128]⟩
abbrev S128 : Shape := ⟨1, ![128]⟩
abbrev S128x128 : Shape := ⟨2, ![128, 128]⟩
abbrev S_ : Shape := ⟨0, ![]⟩
abbrev S40000 : Shape := ⟨1, ![40000]⟩
abbrev S320000x1 : Shape := ⟨2, ![320000, 1]⟩
abbrev S320000x128 : Shape := ⟨2, ![320000, 128]⟩
abbrev S40000x128 : Shape := ⟨2, ![40000, 128]⟩
abbrev S10000x512 : Shape := ⟨2, ![10000, 512]⟩
abbrev S1x128 : Shape := ⟨2, ![1, 128]⟩
abbrev S1000x512 : Shape := ⟨2, ![1000, 512]⟩
abbrev S1000x128 : Shape := ⟨2, ![1000, 128]⟩
abbrev S10000x4x128 : Shape := ⟨3, ![10000, 4, 128]⟩
abbrev S4x10000x128 : Shape := ⟨3, ![4, 10000, 128]⟩
abbrev S1x1000x128 : Shape := ⟨3, ![1, 1000, 128]⟩

abbrev nBuf : Space → Nat
  | .hbm => 72
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S320000, .i32⟩
  | .hbm, ⟨2, _⟩ => ⟨S320000, .i32⟩
  | .hbm, ⟨3, _⟩ => ⟨S320000, .i32⟩
  | .hbm, ⟨4, _⟩ => ⟨S320000, .f32⟩
  | .hbm, ⟨5, _⟩ => ⟨S512x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S_, .f32⟩
  | .hbm, ⟨18, _⟩ => ⟨S40000, .f32⟩
  | .hbm, ⟨19, _⟩ => ⟨S320000x1, .i32⟩
  | .hbm, ⟨20, _⟩ => ⟨S40000, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000, .f32⟩
  | .hbm, ⟨30, _⟩ => ⟨S320000, .f32⟩
  | .hbm, ⟨31, _⟩ => ⟨S320000x1, .f32⟩
  | .hbm, ⟨32, _⟩ => ⟨S_, .i32⟩
  | .hbm, ⟨33, _⟩ => ⟨S320000, .i32⟩
  | .hbm, ⟨34, _⟩ => ⟨S320000, .i1⟩
  | .hbm, ⟨35, _⟩ => ⟨S_, .i32⟩
  | .hbm, ⟨36, _⟩ => ⟨S320000, .i32⟩
  | .hbm, ⟨37, _⟩ => ⟨S320000, .i32⟩
  | .hbm, ⟨38, _⟩ => ⟨S320000, .i32⟩
  | .hbm, ⟨39, _⟩ => ⟨S320000x1, .i32⟩
  | .hbm, ⟨40, _⟩ => ⟨S320000x128, .f32⟩
  | .hbm, ⟨41, _⟩ => ⟨S320000x128, .f32⟩
  | .hbm, ⟨42, _⟩ => ⟨S320000x128, .f32⟩
  | .hbm, ⟨43, _⟩ => ⟨S_, .f32⟩
  | .hbm, ⟨44, _⟩ => ⟨S40000x128, .f32⟩
  | .hbm, ⟨45, _⟩ => ⟨S320000x1, .i32⟩
  | .hbm, ⟨46, _⟩ => ⟨S40000x128, .f32⟩
  | .hbm, ⟨47, _⟩ => ⟨S10000x512, .f32⟩
  | .hbm, ⟨48, _⟩ => ⟨S128, .f32⟩
  | .hbm, ⟨49, _⟩ => ⟨S1x128, .f32⟩
  | .hbm, ⟨50, _⟩ => ⟨S10000x128, .f32⟩
  | .hbm, ⟨51, _⟩ => ⟨S320000x1, .f32⟩
  | .hbm, ⟨52, _⟩ => ⟨S_, .i32⟩
  | .hbm, ⟨53, _⟩ => ⟨S320000, .i32⟩
  | .hbm, ⟨54, _⟩ => ⟨S320000, .i1⟩
  | .hbm, ⟨55, _⟩ => ⟨S_, .i32⟩
  | .hbm, ⟨56, _⟩ => ⟨S320000, .i32⟩
  | .hbm, ⟨57, _⟩ => ⟨S320000, .i32⟩
  | .hbm, ⟨58, _⟩ => ⟨S320000, .i32⟩
  | .hbm, ⟨59, _⟩ => ⟨S320000x1, .i32⟩
  | .hbm, ⟨60, _⟩ => ⟨S320000x128, .f32⟩
  | .hbm, ⟨61, _⟩ => ⟨S320000x128, .f32⟩
  | .hbm, ⟨62, _⟩ => ⟨S320000x128, .f32⟩
  | .hbm, ⟨63, _⟩ => ⟨S_, .f32⟩
  | .hbm, ⟨64, _⟩ => ⟨S40000x128, .f32⟩
  | .hbm, ⟨65, _⟩ => ⟨S320000x1, .i32⟩
  | .hbm, ⟨66, _⟩ => ⟨S40000x128, .f32⟩
  | .hbm, ⟨67, _⟩ => ⟨S10000x4x128, .f32⟩
  | .hbm, ⟨68, _⟩ => ⟨S4x10000x128, .f32⟩
  | .hbm, ⟨69, _⟩ => ⟨S128, .f32⟩
  | .hbm, ⟨70, _⟩ => ⟨S1x128, .f32⟩
  | .hbm, ⟨71, _⟩ => ⟨S4x10000x128, .f32⟩
  | .local _ .vmem, ⟨0, _⟩ => ⟨S1000x512, .f32⟩
  | .local _ .vmem, ⟨1, _⟩ => ⟨S1000x512, .f32⟩
  | .local _ .vmem, ⟨2, _⟩ => ⟨S1000x128, .f32⟩
  | .local _ .vmem, ⟨3, _⟩ => ⟨S1000x128, .f32⟩
  | .local _ .vmem, ⟨4, _⟩ => ⟨S512x128, .f32⟩
  | .local _ .vmem, ⟨5, _⟩ => ⟨S128x128, .f32⟩
  | .local _ .vmem, ⟨6, _⟩ => ⟨S1x128, .f32⟩
  | .local _ .vmem, ⟨7, _⟩ => ⟨S1000x128, .f32⟩
  | .local _ .vmem, ⟨8, _⟩ => ⟨S1000x128, .f32⟩
  | .local _ .vmem, ⟨9, _⟩ => ⟨S1x1000x128, .f32⟩
  | .local _ .vmem, ⟨10, _⟩ => ⟨S1x1000x128, .f32⟩
  | .local _ .vmem, ⟨11, _⟩ => ⟨S1000x128, .f32⟩
  | .local _ .vmem, ⟨12, _⟩ => ⟨S1000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S1x1000x128, .f32⟩
  | .local _ .vmem, ⟨17, _⟩ => ⟨S1x1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bcast_S_S320000 : S_.BroadcastsInDim S320000 (![] : Fin 0 → Fin S320000.rank)
  bcast_S_S40000 : S_.BroadcastsInDim S40000 (![] : Fin 0 → Fin S40000.rank)
  bcast_S320000_S320000x1_0 : S320000.BroadcastsInDim S320000x1 (![0] : Fin 1 → Fin S320000x1.rank)
  bcast_S320000x1_S320000x128_0_1 : S320000x1.BroadcastsInDim S320000x128 (![0, 1] : Fin 2 → Fin S320000x128.rank)
  bcast_S_S40000x128 : S_.BroadcastsInDim S40000x128 (![] : Fin 0 → Fin S40000x128.rank)
  shapeCasts_S40000x128_S10000x512 : S40000x128.ShapeCasts S10000x512
  shapeCasts_S128_S1x128 : S128.ShapeCasts S1x128
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x128_S512x128_0_0 : ∀ a, (![0, 0] : Fin 2 → Nat) a + S512x128.size a ≤ S512x128.size a
  h_S512x128 : 0 < S512x128.numel
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  shapeCasts_S40000x128_S10000x4x128 : S40000x128.ShapeCasts S10000x4x128
  transposes_S10000x4x128_S4x10000x128_1_0_2 : S10000x4x128.Transposes [1, 0, 2] S4x10000x128
  inb_S1x1000x128_S1x1000x128_0_0_0 : ∀ a, (![0, 0, 0] : Fin 3 → Nat) a + S1x1000x128.size a ≤ S1x1000x128.size a
  h_S1x1000x128 : 0 < S1x1000x128.numel
  shapeCasts_S1x1000x128_S1000x128 : S1x1000x128.ShapeCasts S1000x128
  shapeCasts_S1000x128_S1000x128 : S1000x128.ShapeCasts S1000x128
  shapeCasts_S1000x128_S1x1000x128 : S1000x128.ShapeCasts S1x1000x128
  scatter_S40000_S320000x1_S320000_n_0_0_1_wf : ScatterDims.WF S40000 S320000x1 S320000 [] [0] [0] 1
  gather_S40000_S320000x1_S320000_n_0_n_n_0_1_1_wf : GatherDims.WF S40000 S320000x1 S320000 [] [0] [] [0] [] 1 ![1]
  gather_S10000x128_S320000x1_S320000x128_1_0_n_n_0_1_1128_wf : GatherDims.WF S10000x128 S320000x1 S320000x128 [1] [0] [] [0] [] 1 ![1, 128]
  scatter_S40000x128_S320000x1_S320000x128_1_0_0_1_wf : ScatterDims.WF S40000x128 S320000x1 S320000x128 [1] [0] [0] 1
  dot_S1000x512_S512x128_S1000x128_1_0_0_1_n_n_wf : DotDims.WF S1000x512 S512x128 S1000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S10000x128.size a
  hwx0_5 : ∀ i : grid0.Coords, EltTy.bits .f32 = 32 ∨ (Rect.block (s := S10000x128) S1000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1000x128.size a ≤ S4x10000x128.size a
  hwx1_0 : ∀ i : grid1.Coords, EltTy.bits .f32 = 32 ∨ (Rect.block (s := S4x10000x128) S1x1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1000x128.size a ≤ S4x10000x128.size a
  hwx1_5 : ∀ i : grid1.Coords, EltTy.bits .f32 = 32 ∨ (Rect.block (s := S4x10000x128) S1x1000x128.size (cc1_transform_5 i) (hinb1_5 i)).WholeWords (EltTy.packing .f32)

variable [Facts₀]

def scatter_S40000_S320000x1_S320000_n_0_0_1 : ScatterDims S40000 S320000x1 S320000 where
  updateWindowDims := []
  insertedWindowDims := [0]
  scatterDimsToOperandDims := [0]
  indexVectorDim := 1
  wf := scatter_S40000_S320000x1_S320000_n_0_0_1_wf
def gather_S40000_S320000x1_S320000_n_0_n_n_0_1_1 : GatherDims S40000 S320000x1 S320000 where
  offsetDims := []
  collapsedSliceDims := [0]
  operandBatchingDims := []
  startIndicesBatchingDims := []
  startIndexMap := [0]
  indexVectorDim := 1
  sliceSizes := ![1]
  wf := gather_S40000_S320000x1_S320000_n_0_n_n_0_1_1_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S40000x128_S320000x1_S320000x128_1_0_0_1 : ScatterDims S40000x128 S320000x1 S320000x128 where
  updateWindowDims := [1]
  insertedWindowDims := [0]
  scatterDimsToOperandDims := [0]
  indexVectorDim := 1
  wf := scatter_S40000x128_S320000x1_S320000x128_1_0_0_1_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v27) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S1x1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S320000 : Shape := ⟨1, ![320000]⟩
abbrev S512x128 : Shape := ⟨2, ![512, 128]⟩
abbrev S128 : Shape := ⟨1, ![128]⟩
abbrev S128x128 : Shape := ⟨2, ![128, 128]⟩
abbrev S_ : Shape := ⟨0, ![]⟩
abbrev S40000 : Shape := ⟨1, ![40000]⟩
abbrev S320000x1 : Shape := ⟨2, ![320000, 1]⟩
abbrev S320000x128 : Shape := ⟨2, ![320000, 128]⟩
abbrev S40000x128 : Shape := ⟨2, ![40000, 128]⟩
abbrev S10000x512 : Shape := ⟨2, ![10000, 512]⟩
abbrev S1x128 : Shape := ⟨2, ![1, 128]⟩
abbrev S10000x4x128 : Shape := ⟨3, ![10000, 4, 128]⟩
abbrev S4x10000x128 : Shape := ⟨3, ![4, 10000, 128]⟩
abbrev S1x10000x1x128 : Shape := ⟨4, ![1, 10000, 1, 128]⟩
abbrev S4x10000x1x128 : Shape := ⟨4, ![4, 10000, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000, .i32⟩
  | .hbm, ⟨2, _⟩ => ⟨S320000, .i32⟩
  | .hbm, ⟨3, _⟩ => ⟨S320000, .i32⟩
  | .hbm, ⟨4, _⟩ => ⟨S320000, .f32⟩
  | .hbm, ⟨5, _⟩ => ⟨S512x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S_, .f32⟩
  | .hbm, ⟨18, _⟩ => ⟨S40000, .f32⟩
  | .hbm, ⟨19, _⟩ => ⟨S320000x1, .i32⟩
  | .hbm, ⟨20, _⟩ => ⟨S40000, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000, .f32⟩
  | .hbm, ⟨30, _⟩ => ⟨S320000, .f32⟩
  | .hbm, ⟨31, _⟩ => ⟨S320000x1, .f32⟩
  | .hbm, ⟨32, _⟩ => ⟨S_, .i32⟩
  | .hbm, ⟨33, _⟩ => ⟨S320000, .i32⟩
  | .hbm, ⟨34, _⟩ => ⟨S320000, .i1⟩
  | .hbm, ⟨35, _⟩ => ⟨S_, .i32⟩
  | .hbm, ⟨36, _⟩ => ⟨S320000, .i32⟩
  | .hbm, ⟨37, _⟩ => ⟨S320000, .i32⟩
  | .hbm, ⟨38, _⟩ => ⟨S320000, .i32⟩
  | .hbm, ⟨39, _⟩ => ⟨S320000x1, .i32⟩
  | .hbm, ⟨40, _⟩ => ⟨S320000x128, .f32⟩
  | .hbm, ⟨41, _⟩ => ⟨S320000x128, .f32⟩
  | .hbm, ⟨42, _⟩ => ⟨S320000x128, .f32⟩
  | .hbm, ⟨43, _⟩ => ⟨S_, .f32⟩
  | .hbm, ⟨44, _⟩ => ⟨S40000x128, .f32⟩
  | .hbm, ⟨45, _⟩ => ⟨S320000x1, .i32⟩
  | .hbm, ⟨46, _⟩ => ⟨S40000x128, .f32⟩
  | .hbm, ⟨47, _⟩ => ⟨S10000x512, .f32⟩
  | .hbm, ⟨48, _⟩ => ⟨S10000x128, .f32⟩
  | .hbm, ⟨49, _⟩ => ⟨S1x128, .f32⟩
  | .hbm, ⟨50, _⟩ => ⟨S10000x128, .f32⟩
  | .hbm, ⟨51, _⟩ => ⟨S10000x128, .f32⟩
  | .hbm, ⟨52, _⟩ => ⟨S10000x128, .f32⟩
  | .hbm, ⟨53, _⟩ => ⟨S10000x128, .f32⟩
  | .hbm, ⟨54, _⟩ => ⟨S1x128, .f32⟩
  | .hbm, ⟨55, _⟩ => ⟨S10000x128, .f32⟩
  | .hbm, ⟨56, _⟩ => ⟨S10000x128, .f32⟩
  | .hbm, ⟨57, _⟩ => ⟨S_, .f32⟩
  | .hbm, ⟨58, _⟩ => ⟨S10000x128, .f32⟩
  | .hbm, ⟨59, _⟩ => ⟨S10000x128, .f32⟩
  | .hbm, ⟨60, _⟩ => ⟨S320000x1, .f32⟩
  | .hbm, ⟨61, _⟩ => ⟨S_, .i32⟩
  | .hbm, ⟨62, _⟩ => ⟨S320000, .i32⟩
  | .hbm, ⟨63, _⟩ => ⟨S320000, .i1⟩
  | .hbm, ⟨64, _⟩ => ⟨S_, .i32⟩
  | .hbm, ⟨65, _⟩ => ⟨S320000, .i32⟩
  | .hbm, ⟨66, _⟩ => ⟨S320000, .i32⟩
  | .hbm, ⟨67, _⟩ => ⟨S320000, .i32⟩
  | .hbm, ⟨68, _⟩ => ⟨S320000x1, .i32⟩
  | .hbm, ⟨69, _⟩ => ⟨S320000x128, .f32⟩
  | .hbm, ⟨70, _⟩ => ⟨S320000x128, .f32⟩
  | .hbm, ⟨71, _⟩ => ⟨S320000x128, .f32⟩
  | .hbm, ⟨72, _⟩ => ⟨S_, .f32⟩
  | .hbm, ⟨73, _⟩ => ⟨S40000x128, .f32⟩
  | .hbm, ⟨74, _⟩ => ⟨S320000x1, .i32⟩
  | .hbm, ⟨75, _⟩ => ⟨S40000x128, .f32⟩
  | .hbm, ⟨76, _⟩ => ⟨S10000x4x128, .f32⟩
  | .hbm, ⟨77, _⟩ => ⟨S4x10000x128, .f32⟩
  | .hbm, ⟨78, _⟩ => ⟨S40000x128, .f32⟩
  | .hbm, ⟨79, _⟩ => ⟨S1x10000x1x128, .f32⟩
  | .hbm, ⟨80, _⟩ => ⟨S4x10000x1x128, .f32⟩
  | .hbm, ⟨81, _⟩ => ⟨S40000x128, .f32⟩
  | .hbm, ⟨82, _⟩ => ⟨S40000x128, .f32⟩
  | .hbm, ⟨83, _⟩ => ⟨S1x128, .f32⟩
  | .hbm, ⟨84, _⟩ => ⟨S40000x128, .f32⟩
  | .hbm, ⟨85, _⟩ => ⟨S40000x128, .f32⟩
  | .hbm, ⟨86, _⟩ => ⟨S40000x128, .f32⟩
  | .hbm, ⟨87, _⟩ => ⟨S40000x128, .f32⟩
  | .hbm, ⟨88, _⟩ => ⟨S1x128, .f32⟩
  | .hbm, ⟨89, _⟩ => ⟨S40000x128, .f32⟩
  | .hbm, ⟨90, _⟩ => ⟨S40000x128, .f32⟩
  | .hbm, ⟨91, _⟩ => ⟨S_, .f32⟩
  | .hbm, ⟨92, _⟩ => ⟨S40000x128, .f32⟩
  | .hbm, ⟨93, _⟩ => ⟨S40000x128, .f32⟩
  | .hbm, ⟨94, _⟩ => ⟨S4x10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call0_cst : Ref sig .tc := ⟨.hbm, 57, rfl⟩
abbrev main_call0_v0 : Ref sig .tc := ⟨.hbm, 58, rfl⟩
abbrev main_v37 : Ref sig .tc := ⟨.hbm, 59, rfl⟩
abbrev main_v38 : Ref sig .tc := ⟨.hbm, 60, rfl⟩
abbrev main_c_5 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call1_cst : Ref sig .tc := ⟨.hbm, 91, rfl⟩
abbrev main_call1_v0 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S_S40000 : S_.BroadcastsInDim S40000 (![] : Fin 0 → Fin S40000.rank)
  bcast_S320000_S320000x1_0 : S320000.BroadcastsInDim S320000x1 (![0] : Fin 1 → Fin S320000x1.rank)
  bcast_S320000x1_S320000x128_0_1 : S320000x1.BroadcastsInDim S320000x128 (![0, 1] : Fin 2 → Fin S320000x128.rank)
  bcast_S_S40000x128 : S_.BroadcastsInDim S40000x128 (![] : Fin 0 → Fin S40000x128.rank)
  shapeCasts_S40000x128_S10000x512 : S40000x128.ShapeCasts S10000x512
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  shapeCasts_S40000x128_S10000x4x128 : S40000x128.ShapeCasts S10000x4x128
  transposes_S10000x4x128_S4x10000x128_1_0_2 : S10000x4x128.Transposes [1, 0, 2] S4x10000x128
  shapeCasts_S4x10000x128_S40000x128 : S4x10000x128.ShapeCasts S40000x128
  shapeCasts_S10000x128_S1x10000x1x128 : S10000x128.ShapeCasts S1x10000x1x128
  bcast_S1x10000x1x128_S4x10000x1x128_0_1_2_3 : S1x10000x1x128.BroadcastsInDim S4x10000x1x128 (![0, 1, 2, 3] : Fin 4 → Fin S4x10000x1x128.rank)
  shapeCasts_S4x10000x1x128_S40000x128 : S4x10000x1x128.ShapeCasts S40000x128
  bcast_S1x128_S40000x128_0_1 : S1x128.BroadcastsInDim S40000x128 (![0, 1] : Fin 2 → Fin S40000x128.rank)
  shapeCasts_S40000x128_S4x10000x128 : S40000x128.ShapeCasts S4x10000x128
  scatter_S40000_S320000x1_S320000_n_0_0_1_wf : ScatterDims.WF S40000 S320000x1 S320000 [] [0] [0] 1
  gather_S40000_S320000x1_S320000_n_0_n_n_0_1_1_wf : GatherDims.WF S40000 S320000x1 S320000 [] [0] [] [0] [] 1 ![1]
  gather_S10000x128_S320000x1_S320000x128_1_0_n_n_0_1_1128_wf : GatherDims.WF S10000x128 S320000x1 S320000x128 [1] [0] [] [0] [] 1 ![1, 128]
  scatter_S40000x128_S320000x1_S320000x128_1_0_0_1_wf : ScatterDims.WF S40000x128 S320000x1 S320000x128 [1] [0] [0] 1
  dot_S10000x512_S512x128_S10000x128_1_0_0_1_n_n_wf : DotDims.WF S10000x512 S512x128 S10000x128 [1] [0] [0] [1] [] []
  dot_S10000x128_S128x128_S10000x128_1_0_0_1_n_n_wf : DotDims.WF S10000x128 S128x128 S10000x128 [1] [0] [0] [1] [] []
  dot_S40000x128_S128x128_S40000x128_1_0_0_1_n_n_wf : DotDims.WF S40000x128 S128x128 S40000x128 [1] [0] [0] [1] [] []

variable [Facts₀]

def scatter_S40000_S320000x1_S320000_n_0_0_1 : ScatterDims S40000 S320000x1 S320000 where
  updateWindowDims := []
  insertedWindowDims := [0]
  scatterDimsToOperandDims := [0]
  indexVectorDim := 1
  wf := scatter_S40000_S320000x1_S320000_n_0_0_1_wf
def gather_S40000_S320000x1_S320000_n_0_n_n_0_1_1 : GatherDims S40000 S320000x1 S320000 where
  offsetDims := []
  collapsedSliceDims := [0]
  operandBatchingDims := []
  startIndicesBatchingDims := []
  startIndexMap := [0]
  indexVectorDim := 1
  sliceSizes := ![1]
  wf := gather_S40000_S320000x1_S320000_n_0_n_n_0_1_1_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S40000x128_S320000x1_S320000x128_1_0_0_1 : ScatterDims S40000x128 S320000x1 S320000x128 where
  updateWindowDims := [1]
  insertedWindowDims := [0]
  scatterDimsToOperandDims := [0]
  indexVectorDim := 1
  wf := scatter_S40000x128_S320000x1_S320000x128_1_0_0_1_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.KernelSteps.lean ====
/-
  What one grid step of each kernel stores, entry by entry, over the extended reals.

  A step of the first kernel loads a [1000, 512] block u of aggregated messages, a [1000, 128] block x of node
  features, the two weight matrices wl [512, 128] and ws [128, 128] and a bias row b [1, 128], and stores
  max ((u · wl + x · ws) + b, 0). Each product is accumulated into a zero block, so its entry (a, q) is the plain sum
  over the contracted coordinate; the bias row is repeated down the rows, so entry (a, q) reads b (0, q); the relu is
  the maximum with the zero word. A step of the second kernel is the same computation on [1000, 128] blocks, its
  message block and its result block carrying a leading axis of length one that a reshape drops and restores.
-/
import proofs.«159219_g781684048166_bridgefix_257_2_alg».proof.Proof.Gen.KernelIdeal.Skeleton
import proofs.«159219_g781684048166_bridgefix_257_2_alg».proof.Proof.LibPlainMatmul
import Idealize.ShloMosaic.Lib.Pipeline.Value
import Idealize.ShloMosaic.Lib.ValueIdx

noncomputable section

namespace Cert.KernelIdeal.Steps

open Cert.KernelIdeal Cert.KernelIdeal.Gen Idealize.ShloMosaic Idealize.ShloMosaic.ValueIdx

/-- The kernels' two contractions are the plain [m, k] by [k, n] product. -/
theorem dims512 : dot_S1000x512_S512x128_S1000x128_1_0_0_1_n_n = DotDims.plain 1000 512 128 := rfl
theorem dims128 : dot_S1000x128_S128x128_S1000x128_1_0_0_1_n_n = DotDims.plain 1000 128 128 := rfl

/-- A [1, 128] row repeated down 1000 rows reads, at (a, q), the row's entry (0, q). -/
theorem row_repeat (b : FVec Ideal S1x128 .f32) (h : S1x128.Broadcasts S1000x128) (a : Fin 1000) (q : Fin 128) :
    broadcastTo S1000x128 b h (ix2 a q) = b (ix2 0 q) :=
  broadcastTo_apply b h (ix2 a q) (ix2 0 q) (fun d => by
    match d with
    | ⟨0, _⟩ => rfl
    | ⟨1, _⟩ => rfl)

/-- Entry (a, q) of what a step of the first kernel stores. -/
theorem step0_apply (u : Vec Ideal S1000x512 .f32) (wl : Vec Ideal S512x128 .f32) (x : Vec Ideal S1000x128 .f32)
    (ws : Vec Ideal S128x128 .f32) (b : Vec Ideal S1x128 .f32) (a : Fin 1000) (q : Fin 128) :
    k0_pay1 (F := Ideal) u wl x ws b (ix2 a q)
      = max (((∑ k : Fin 512, u (ix2 a k) * wl (ix2 k q)) + ∑ k : Fin 128, x (ix2 a k) * ws (ix2 k q)) + b (ix2 0 q))
          (Ideal.ofBits .f32 0x00000000#32) := by
  unfold k0_pay1
  rw [maximumf_apply, addf_apply, addf_apply, broadcast_apply, shapeCast_self, shapeCast_self, row_repeat]
  rw [dims512, dims128, Cert.Lib.matmul_plain_zero_apply, Cert.Lib.matmul_plain_zero_apply]
  rfl

/-- Dropping the leading unit axis of a [1, 1000, 128] block: entry (a, k) of the [1000, 128] block is entry (0, a, k). -/
theorem drop_unit_axis (u : FVec Ideal S1x1000x128 .f32) (h : S1x1000x128.ShapeCasts S1000x128) (a : Fin 1000) (k : Fin 128) :
    shapeCast S1000x128 u h (ix2 a k) = u (ix3 0 a k) :=
  shapeCast_apply u h (ix2 a k) (ix3 0 a k) (by
    rw [Shape.rowMajor_val_three, Shape.rowMajor_val_two]
    show ((0 : Fin 1).val * 1000 + a.val) * 128 + k.val = a.val * 128 + k.val
    simp)

/-- Restoring it: entry (0, a, q) of the [1, 1000, 128] block is entry (a, q) of the [1000, 128] block. -/
theorem add_unit_axis (v : FVec Ideal S1000x128 .f32) (h : S1000x128.ShapeCasts S1x1000x128) (a : Fin 1000) (q : Fin 128) :
    shapeCast S1x1000x128 v h (ix3 0 a q) = v (ix2 a q) :=
  shapeCast_apply v h (ix3 0 a q) (ix2 a q) (by
    rw [Shape.rowMajor_val_three, Shape.rowMajor_val_two]
    show a.val * 128 + q.val = ((0 : Fin 1).val * 1000 + a.val) * 128 + q.val
    simp)

/-- Entry (0, a, q) of what a step of the second kernel stores. -/
theorem step1_apply (u : Vec Ideal S1x1000x128 .f32) (wl : Vec Ideal S128x128 .f32) (x : Vec Ideal S1000x128 .f32)
    (ws : Vec Ideal S128x128 .f32) (b : Vec Ideal S1x128 .f32) (a : Fin 1000) (q : Fin 128) :
    k1_pay1 (F := Ideal) u wl x ws b (ix3 0 a q)
      = max (((∑ k : Fin 128, u (ix3 0 a k) * wl (ix2 k q)) + ∑ k : Fin 128, x (ix2 a k) * ws (ix2 k q)) + b (ix2 0 q))
          (Ideal.ofBits .f32 0x00000000#32) := by
  unfold k1_pay1
  rw [add_unit_axis, maximumf_apply, addf_apply, addf_apply, broadcast_apply, shapeCast_self, shapeCast_self, row_repeat]
  rw [dims128, Cert.Lib.matmul_plain_zero_apply, Cert.Lib.matmul_plain_zero_apply]
  simp only [drop_unit_axis]
  rfl

end Cert.KernelIdeal.Steps

end
-- ==== Proof.LayerSpec.lean ====
/-
  The two dense layers of the relational graph network, entry by entry, over the extended reals.

  A layer takes an aggregated-message array U, a node-feature array X, two weight matrices W_l and W_s and two bias
  vectors b_l and b_s, and returns relu (U · W_l + b_l + X · W_s + b_s). Entry (p, q) of a matrix product is the sum
  over the contracted coordinate k of the products of the entries, so entry (p, q) of the layer is

      max ((((∑ k, U (p, k) · W_l (k, q)) + b_l q) + ∑ k, X (p, k) · W_s (k, q)) + b_s q) 0.

  The same layer can be computed with the two biases added first into one row B = b_l + b_s, the two products added
  to each other, and the row added last: max (((∑ k, U (p, k) · W_l (k, q)) + ∑ k, X (p, k) · W_s (k, q)) + B q) 0.
  The two groupings agree because addition on the extended reals is commutative and associative
  ((P + Q) + (a + b) = ((P + a) + Q) + b); that holds at infinite values too, so no entry is assumed finite.

  Layer 0 has U of width 4 · 128 (the four relations side by side) against a [512, 128] matrix. Layer 1 has U stacked
  by relation, [4, 10000, 128], against one [128, 128] matrix, the node features the same for every relation, and a
  result stacked the same way.
-/
import Idealize.ShloMosaic.Lib.ValueIdx
import Idealize.ShloMosaic.PureOps.Ideal

noncomputable section

namespace Cert.Layers

open Idealize.ShloMosaic Idealize.ShloMosaic.ValueIdx

/-- The zero every relu compares against: the f32 word of +0.0 read as an extended real. -/
abbrev zeroWord : Ideal .f32 := Ideal.ofBits .f32 0x00000000#32

/-! ## Layer 0 -/

/-- Entry (p, q) of layer 0, the biases added one after the other: ((U · W_l + b_l) + X · W_s) + b_s, then relu. -/
def layer0At (U : FVec Ideal ⟨2, ![10000, 512]⟩ .f32) (X : FVec Ideal ⟨2, ![10000, 128]⟩ .f32)
    (Wl : FVec Ideal ⟨2, ![512, 128]⟩ .f32) (Ws : FVec Ideal ⟨2, ![128, 128]⟩ .f32)
    (bl bs : FVec Ideal ⟨1, ![128]⟩ .f32) (p : Fin 10000) (q : Fin 128) : Ideal .f32 :=
  max ((((∑ k : Fin 512, U (ix2 p k) * Wl (ix2 k q)) + bl (ix1 q)) + ∑ k : Fin 128, X (ix2 p k) * Ws (ix2 k q)) + bs (ix1 q))
    zeroWord

/-- Layer 0 as an array. -/
def layer0 (U : FVec Ideal ⟨2, ![10000, 512]⟩ .f32) (X : FVec Ideal ⟨2, ![10000, 128]⟩ .f32)
    (Wl : FVec Ideal ⟨2, ![512, 128]⟩ .f32) (Ws : FVec Ideal ⟨2, ![128, 128]⟩ .f32)
    (bl bs : FVec Ideal ⟨1, ![128]⟩ .f32) : FVec Ideal ⟨2, ![10000, 128]⟩ .f32 :=
  fun i => layer0At U X Wl Ws bl bs (i 0) (i 1)

/-- Entry (p, q) of layer 0 with one bias row B added last: (U · W_l + X · W_s) + B, then relu. -/
def layer0RowAt (U : FVec Ideal ⟨2, ![10000, 512]⟩ .f32) (X : FVec Ideal ⟨2, ![10000, 128]⟩ .f32)
    (Wl : FVec Ideal ⟨2, ![512, 128]⟩ .f32) (Ws : FVec Ideal ⟨2, ![128, 128]⟩ .f32)
    (B : FVec Ideal ⟨2, ![1, 128]⟩ .f32) (p : Fin 10000) (q : Fin 128) : Ideal .f32 :=
  max (((∑ k : Fin 512, U (ix2 p k) * Wl (ix2 k q)) + ∑ k : Fin 128, X (ix2 p k) * Ws (ix2 k q)) + B (ix2 0 q))
    zeroWord

/-- That form as an array. -/
def layer0Row (U : FVec Ideal ⟨2, ![10000, 512]⟩ .f32) (X : FVec Ideal ⟨2, ![10000, 128]⟩ .f32)
    (Wl : FVec Ideal ⟨2, ![512, 128]⟩ .f32) (Ws : FVec Ideal ⟨2, ![128, 128]⟩ .f32)
    (B : FVec Ideal ⟨2, ![1, 128]⟩ .f32) : FVec Ideal ⟨2, ![10000, 128]⟩ .f32 :=
  fun i => layer0RowAt U X Wl Ws B (i 0) (i 1)

/-- (P + Q) + (a + b) = ((P + a) + Q) + b on the extended reals: commutativity and associativity only. -/
theorem add_regroup (P Q a b : EReal) : (P + Q) + (a + b) = ((P + a) + Q) + b := by
  rw [add_add_add_comm, ← add_assoc]

/-- With B the sum of the two biases, the two groupings of layer 0 agree at every entry, -/
theorem layer0RowAt_eq (U : FVec Ideal ⟨2, ![10000, 512]⟩ .f32) (X : FVec Ideal ⟨2, ![10000, 128]⟩ .f32)
    (Wl : FVec Ideal ⟨2, ![512, 128]⟩ .f32) (Ws : FVec Ideal ⟨2, ![128, 128]⟩ .f32)
    (B : FVec Ideal ⟨2, ![1, 128]⟩ .f32) (bl bs : FVec Ideal ⟨1, ![128]⟩ .f32)
    (hB : ∀ q : Fin 128, B (ix2 0 q) = bl (ix1 q) + bs (ix1 q)) (p : Fin 10000) (q : Fin 128) :
    layer0RowAt U X Wl Ws B p q = layer0At U X Wl Ws bl bs p q := by
  unfold layer0RowAt layer0At
  rw [hB]
  exact congrArg (fun z => max z zeroWord) (add_regroup _ _ _ _)

/-- and so are one array. -/
theorem layer0Row_eq (U : FVec Ideal ⟨2, ![10000, 512]⟩ .f32) (X : FVec Ideal ⟨2, ![10000, 128]⟩ .f32)
    (Wl : FVec Ideal ⟨2, ![512, 128]⟩ .f32) (Ws : FVec Ideal ⟨2, ![128, 128]⟩ .f32)
    (B : FVec Ideal ⟨2, ![1, 128]⟩ .f32) (bl bs : FVec Ideal ⟨1, ![128]⟩ .f32)
    (hB : ∀ q : Fin 128, B (ix2 0 q) = bl (ix1 q) + bs (ix1 q)) :
    layer0Row U X Wl Ws B = layer0 U X Wl Ws bl bs :=
  funext fun i => layer0RowAt_eq U X Wl Ws B bl bs hB (i 0) (i 1)

/-! ## Layer 1 -/

/-- Entry (r, p, q) of layer 1: relation r's messages against W_l, the node features (one array for every relation)
    against W_s, the biases added one after the other, then relu. -/
def layer1At (U : FVec Ideal ⟨3, ![4, 10000, 128]⟩ .f32) (H : FVec Ideal ⟨2, ![10000, 128]⟩ .f32)
    (Wl Ws : FVec Ideal ⟨2, ![128, 128]⟩ .f32) (bl bs : FVec Ideal ⟨1, ![128]⟩ .f32)
    (r : Fin 4) (p : Fin 10000) (q : Fin 128) : Ideal .f32 :=
  max ((((∑ k : Fin 128, U (ix3 r p k) * Wl (ix2 k q)) + bl (ix1 q)) + ∑ k : Fin 128, H (ix2 p k) * Ws (ix2 k q)) + bs (ix1 q))
    zeroWord

/-- Layer 1 as an array. -/
def layer1 (U : FVec Ideal ⟨3, ![4, 10000, 128]⟩ .f32) (H : FVec Ideal ⟨2, ![10000, 128]⟩ .f32)
    (Wl Ws : FVec Ideal ⟨2, ![128, 128]⟩ .f32) (bl bs : FVec Ideal ⟨1, ![128]⟩ .f32) :
    FVec Ideal ⟨3, ![4, 10000, 128]⟩ .f32 :=
  fun i => layer1At U H Wl Ws bl bs (i 0) (i 1) (i 2)

/-- Entry (r, p, q) of layer 1 with one bias row B added last. -/
def layer1RowAt (U : FVec Ideal ⟨3, ![4, 10000, 128]⟩ .f32) (H : FVec Ideal ⟨2, ![10000, 128]⟩ .f32)
    (Wl Ws : FVec Ideal ⟨2, ![128, 128]⟩ .f32) (B : FVec Ideal ⟨2, ![1, 128]⟩ .f32)
    (r : Fin 4) (p : Fin 10000) (q : Fin 128) : Ideal .f32 :=
  max (((∑ k : Fin 128, U (ix3 r p k) * Wl (ix2 k q)) + ∑ k : Fin 128, H (ix2 p k) * Ws (ix2 k q)) + B (ix2 0 q))
    zeroWord

/-- That form as an array. -/
def layer1Row (U : FVec Ideal ⟨3, ![4, 10000, 128]⟩ .f32) (H : FVec Ideal ⟨2, ![10000, 128]⟩ .f32)
    (Wl Ws : FVec Ideal ⟨2, ![128, 128]⟩ .f32) (B : FVec Ideal ⟨2, ![1, 128]⟩ .f32) :
    FVec Ideal ⟨3, ![4, 10000, 128]⟩ .f32 :=
  fun i => layer1RowAt U H Wl Ws B (i 0) (i 1) (i 2)

/-- With B the sum of the two biases, the two groupings of layer 1 agree at every entry, -/
theorem layer1RowAt_eq (U : FVec Ideal ⟨3, ![4, 10000, 128]⟩ .f32) (H : FVec Ideal ⟨2, ![10000, 128]⟩ .f32)
    (Wl Ws : FVec Ideal ⟨2, ![128, 128]⟩ .f32) (B : FVec Ideal ⟨2, ![1, 128]⟩ .f32)
    (bl bs : FVec Ideal ⟨1, ![128]⟩ .f32)
    (hB : ∀ q : Fin 128, B (ix2 0 q) = bl (ix1 q) + bs (ix1 q)) (r : Fin 4) (p : Fin 10000) (q : Fin 128) :
    layer1RowAt U H Wl Ws B r p q = layer1At U H Wl Ws bl bs r p q := by
  unfold layer1RowAt layer1At
  rw [hB]
  exact congrArg (fun z => max z zeroWord) (add_regroup _ _ _ _)

/-- and so are one array. -/
theorem layer1Row_eq (U : FVec Ideal ⟨3, ![4, 10000, 128]⟩ .f32) (H : FVec Ideal ⟨2, ![10000, 128]⟩ .f32)
    (Wl Ws : FVec Ideal ⟨2, ![128, 128]⟩ .f32) (B : FVec Ideal ⟨2, ![1, 128]⟩ .f32)
    (bl bs : FVec Ideal ⟨1, ![128]⟩ .f32)
    (hB : ∀ q : Fin 128, B (ix2 0 q) = bl (ix1 q) + bs (ix1 q)) :
    layer1Row U H Wl Ws B = layer1 U H Wl Ws bl bs :=
  funext fun i => layer1RowAt_eq U H Wl Ws B bl bs hB (i 0) (i 1) (i 2)

/-- A bias row made by laying the sum of two length-128 vectors out as [1, 128] holds their sum at column q,
    whenever the layout reads column q of the row at entry q of the vector. -/
theorem row_of_sum (B : FVec Ideal ⟨2, ![1, 128]⟩ .f32) (bl bs : FVec Ideal ⟨1, ![128]⟩ .f32)
    (hrow : ∀ q : Fin 128, B (ix2 0 q) = addf bl bs (ix1 q)) (q : Fin 128) :
    B (ix2 0 q) = bl (ix1 q) + bs (ix1 q) := (hrow q).trans (addf_apply bl bs (ix1 q))

end Cert.Layers

end
-- ==== Proof.LibBlockIndex.lean ====
/-
  Index maps of a block into its array, read at coordinates.

  A block of an array is read through an index map from the block's indices to the array's. Of such a map a proof about
  tiled computations needs only its coordinates: a coordinate is kept, or shifted by the block's offset, or pinned to the
  member of a stacked array the block belongs to. Knowing the coordinates, the map's value at the index built from
  coordinates (a, b) — or (0, a, b) for a block with a leading axis of length one — is the index built from the shifted
  coordinates.
-/
import Idealize.ShloMosaic.Lib.ValueIdx

noncomputable section

namespace Cert.Lib

open Idealize.ShloMosaic Idealize.ShloMosaic.ValueIdx

/-- An index map of a rank-2 array into itself that keeps both coordinates is the identity at (a, b). -/
theorem keep2 {n0 n1 : Nat} (e : (⟨2, ![n0, n1]⟩ : Shape).Idx → (⟨2, ![n0, n1]⟩ : Shape).Idx)
    (h0 : ∀ y, (e y 0).val = (y 0).val) (h1 : ∀ y, (e y 1).val = (y 1).val) (a : Fin n0) (b : Fin n1) :
    e (ix2 a b) = ix2 a b := by
  funext d; apply Fin.ext
  match d with
  | ⟨0, _⟩ => exact h0 (ix2 a b)
  | ⟨1, _⟩ => exact h1 (ix2 a b)

/-- An index map of a row block into a taller array that shifts rows by off and keeps columns lands at (p, b) when
    p = off + a. -/
theorem shift2 {n0 N0 n1 : Nat} (e : (⟨2, ![n0, n1]⟩ : Shape).Idx → (⟨2, ![N0, n1]⟩ : Shape).Idx) (off : Nat)
    (h0 : ∀ y, (e y 0).val = off + (y 0).val) (h1 : ∀ y, (e y 1).val = (y 1).val)
    (a : Fin n0) (b : Fin n1) (p : Fin N0) (hp : p.val = off + a.val) :
    e (ix2 a b) = ix2 p b := by
  funext d; apply Fin.ext
  match d with
  | ⟨0, _⟩ => exact (h0 (ix2 a b)).trans hp.symm
  | ⟨1, _⟩ => exact h1 (ix2 a b)

/-- An index map of a [1, n1, n2] block into a stacked [R, N1, n2] array that sits at member r, shifts the middle
    coordinate by off and keeps the last lands at (r, p, b) when p = off + a. -/
theorem shift3 {n1 R N1 n2 : Nat} (e : (⟨3, ![1, n1, n2]⟩ : Shape).Idx → (⟨3, ![R, N1, n2]⟩ : Shape).Idx) (r : Fin R) (off : Nat)
    (h0 : ∀ y, (e y 0).val = r.val) (h1 : ∀ y, (e y 1).val = off + (y 1).val) (h2 : ∀ y, (e y 2).val = (y 2).val)
    (a : Fin n1) (b : Fin n2) (p : Fin N1) (hp : p.val = off + a.val) :
    e (ix3 0 a b) = ix3 r p b := by
  funext d; apply Fin.ext
  match d with
  | ⟨0, _⟩ => exact h0 (ix3 0 a b)
  | ⟨1, _⟩ => exact (h1 (ix3 0 a b)).trans hp.symm
  | ⟨2, _⟩ => exact h2 (ix3 0 a b)

end Cert.Lib

end
-- ==== Proof.LayerBlocks.lean ====
/-
  A grid step's stored block is the matching block of the whole layer.

  Rows off, …, off + 999 of a layer depend on those rows of its two left factors, on all of both weight matrices and on
  the bias row: entry (off + a, q) of the layer is the step's entry (a, q) when the step's blocks are those rows. How a
  block sits in its array is left to index maps of which only the coordinates are assumed: the row blocks are shifted by
  off (and, for the second layer, sit at relation r of the stacked arrays), the weights and the bias row are read whole.
-/
import proofs.«159219_g781684048166_bridgefix_257_2_alg».proof.Proof.KernelSteps
import proofs.«159219_g781684048166_bridgefix_257_2_alg».proof.Proof.LayerSpec
import proofs.«159219_g781684048166_bridgefix_257_2_alg».proof.Proof.LibBlockIndex

noncomputable section

namespace Cert.KernelIdeal.Steps

open Cert.KernelIdeal Cert.KernelIdeal.Gen Cert.Lib Idealize.ShloMosaic Idealize.ShloMosaic.ValueIdx

/-- The first kernel's step on rows off … of the layer's arrays stores those rows of layer 0 (bias row added last). -/
theorem layer0_block (U : FVec Ideal S10000x512 .f32) (X : FVec Ideal S10000x128 .f32) (Wl : FVec Ideal S512x128 .f32)
    (Ws : FVec Ideal S128x128 .f32) (B : FVec Ideal S1x128 .f32)
    (u : Vec Ideal S1000x512 .f32) (wl : Vec Ideal S512x128 .f32) (x : Vec Ideal S1000x128 .f32)
    (ws : Vec Ideal S128x128 .f32) (b : Vec Ideal S1x128 .f32) (off : Nat)
    (eu : S1000x512.Idx → S10000x512.Idx) (ex : S1000x128.Idx → S10000x128.Idx) (el : S512x128.Idx → S512x128.Idx)
    (es : S128x128.Idx → S128x128.Idx) (eb : S1x128.Idx → S1x128.Idx) (eo : S1000x128.Idx → S10000x128.Idx)
    (hu : ∀ y, u y = U (eu y)) (hx : ∀ y, x y = X (ex y)) (hl : ∀ y, wl y = Wl (el y)) (hs : ∀ y, ws y = Ws (es y))
    (hb : ∀ y, b y = B (eb y))
    (hu0 : ∀ y, (eu y 0).val = off + (y 0).val) (hu1 : ∀ y, (eu y 1).val = (y 1).val)
    (hx0 : ∀ y, (ex y 0).val = off + (y 0).val) (hx1 : ∀ y, (ex y 1).val = (y 1).val)
    (hl0 : ∀ y, (el y 0).val = (y 0).val) (hl1 : ∀ y, (el y 1).val = (y 1).val)
    (hs0 : ∀ y, (es y 0).val = (y 0).val) (hs1 : ∀ y, (es y 1).val = (y 1).val)
    (hb0 : ∀ y, (eb y 0).val = (y 0).val) (hb1 : ∀ y, (eb y 1).val = (y 1).val)
    (ho0 : ∀ y, (eo y 0).val = off + (y 0).val) (ho1 : ∀ y, (eo y 1).val = (y 1).val)
    (j : S1000x128.Idx) :
    k0_pay1 (F := Ideal) u wl x ws b j = Cert.Layers.layer0Row U X Wl Ws B (eo j) := by
  obtain ⟨a, q, rfl⟩ : ∃ (a : Fin 1000) (q : Fin 128), j = ix2 a q := ⟨j 0, j 1, eq_ix2 j⟩
  obtain ⟨p, q', hpq⟩ : ∃ (p : Fin 10000) (q' : Fin 128), eo (ix2 a q) = ix2 p q' :=
    ⟨eo (ix2 a q) 0, eo (ix2 a q) 1, eq_ix2 _⟩
  have hp : p.val = off + a.val := by have := ho0 (ix2 a q); rw [hpq] at this; exact this
  have hq : q' = q := Fin.ext (by have := ho1 (ix2 a q); rw [hpq] at this; exact this)
  subst hq
  rw [step0_apply, hpq]
  show _ = Cert.Layers.layer0RowAt U X Wl Ws B p q'
  unfold Cert.Layers.layer0RowAt
  have e1 : ∀ k : Fin 512, eu (ix2 a k) = ix2 p k := fun k => shift2 eu off hu0 hu1 a k p hp
  have e2 : ∀ k : Fin 512, el (ix2 k q') = ix2 k q' := fun k => keep2 el hl0 hl1 k q'
  have e3 : ∀ k : Fin 128, ex (ix2 a k) = ix2 p k := fun k => shift2 ex off hx0 hx1 a k p hp
  have e4 : ∀ k : Fin 128, es (ix2 k q') = ix2 k q' := fun k => keep2 es hs0 hs1 k q'
  have e5 : eb (ix2 0 q') = ix2 0 q' := keep2 eb hb0 hb1 0 q'
  simp only [hu, hl, hx, hs, hb, e1, e2, e3, e4, e5]

/-- The second kernel's step on relation r, rows off … stores those entries of layer 1 (bias row added last). -/
theorem layer1_block (U : FVec Ideal S4x10000x128 .f32) (H : FVec Ideal S10000x128 .f32) (Wl Ws : FVec Ideal S128x128 .f32)
    (B : FVec Ideal S1x128 .f32)
    (u : Vec Ideal S1x1000x128 .f32) (wl : Vec Ideal S128x128 .f32) (x : Vec Ideal S1000x128 .f32)
    (ws : Vec Ideal S128x128 .f32) (b : Vec Ideal S1x128 .f32) (r : Fin 4) (off : Nat)
    (eu : S1x1000x128.Idx → S4x10000x128.Idx) (ex : S1000x128.Idx → S10000x128.Idx) (el : S128x128.Idx → S128x128.Idx)
    (es : S128x128.Idx → S128x128.Idx) (eb : S1x128.Idx → S1x128.Idx) (eo : S1x1000x128.Idx → S4x10000x128.Idx)
    (hu : ∀ y, u y = U (eu y)) (hx : ∀ y, x y = H (ex y)) (hl : ∀ y, wl y = Wl (el y)) (hs : ∀ y, ws y = Ws (es y))
    (hb : ∀ y, b y = B (eb y))
    (hu0 : ∀ y, (eu y 0).val = r.val) (hu1 : ∀ y, (eu y 1).val = off + (y 1).val) (hu2 : ∀ y, (eu y 2).val = (y 2).val)
    (hx0 : ∀ y, (ex y 0).val = off + (y 0).val) (hx1 : ∀ y, (ex y 1).val = (y 1).val)
    (hl0 : ∀ y, (el y 0).val = (y 0).val) (hl1 : ∀ y, (el y 1).val = (y 1).val)
    (hs0 : ∀ y, (es y 0).val = (y 0).val) (hs1 : ∀ y, (es y 1).val = (y 1).val)
    (hb0 : ∀ y, (eb y 0).val = (y 0).val) (hb1 : ∀ y, (eb y 1).val = (y 1).val)
    (ho0 : ∀ y, (eo y 0).val = r.val) (ho1 : ∀ y, (eo y 1).val = off + (y 1).val) (ho2 : ∀ y, (eo y 2).val = (y 2).val)
    (j : S1x1000x128.Idx) :
    k1_pay1 (F := Ideal) u wl x ws b j = Cert.Layers.layer1Row U H Wl Ws B (eo j) := by
  obtain ⟨z, a, q, rfl⟩ : ∃ (z : Fin 1) (a : Fin 1000) (q : Fin 128), j = ix3 z a q := ⟨j 0, j 1, j 2, eq_ix3 j⟩
  obtain rfl : z = 0 := Subsingleton.elim z 0
  obtain ⟨r', p, q', hpq⟩ : ∃ (r' : Fin 4) (p : Fin 10000) (q' : Fin 128), eo (ix3 0 a q) = ix3 r' p q' :=
    ⟨eo (ix3 0 a q) 0, eo (ix3 0 a q) 1, eo (ix3 0 a q) 2, eq_ix3 _⟩
  have hr : r' = r := Fin.ext (by have := ho0 (ix3 0 a q); rw [hpq] at this; exact this)
  have hp : p.val = off + a.val := by have := ho1 (ix3 0 a q); rw [hpq] at this; exact this
  have hq : q' = q := Fin.ext (by have := ho2 (ix3 0 a q); rw [hpq] at this; exact this)
  subst hr hq
  rw [step1_apply, hpq]
  show _ = Cert.Layers.layer1RowAt U H Wl Ws B r' p q'
  unfold Cert.Layers.layer1RowAt
  have e1 : ∀ k : Fin 128, eu (ix3 0 a k) = ix3 r' p k := fun k => shift3 eu r' off hu0 hu1 hu2 a k p hp
  have e2 : ∀ k : Fin 128, el (ix2 k q') = ix2 k q' := fun k => keep2 el hl0 hl1 k q'
  have e3 : ∀ k : Fin 128, ex (ix2 a k) = ix2 p k := fun k => shift2 ex off hx0 hx1 a k p hp
  have e4 : ∀ k : Fin 128, es (ix2 k q') = ix2 k q' := fun k => keep2 es hs0 hs1 k q'
  have e5 : eb (ix2 0 q') = ix2 0 q' := keep2 eb hb0 hb1 0 q'
  simp only [hu, hl, hx, hs, hb, e1, e2, e3, e4, e5]

end Cert.KernelIdeal.Steps

end
-- ==== Proof.Region0.lean ====
/-
  The first kernel's output array, whole.

  The grid has ten points; point t takes rows 1000 t … 1000 t + 999 of the message array and of the node features, the
  two weight matrices and the bias row whole, and writes rows 1000 t … of the output. A step's stored block is those
  rows of layer 0 of the arrays as the kernel finds them, and the ten row blocks cover all 10000 rows (row p is in block
  p / 1000), so after the last write-back the output array is layer 0 of those arrays.
-/
import proofs.«159219_g781684048166_bridgefix_257_2_alg».proof.Proof.Gen.KernelIdeal.Frame
import proofs.«159219_g781684048166_bridgefix_257_2_alg».proof.Proof.LayerBlocks

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every point: the row windows (messages, features, output) are at block t, the
    weights and the bias row at block 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of layer 0 (bias row added last) of the arrays the kernel finds. -/
theorem flushed_eq (c : Dev nD) (t : Fin cfg0.N) :
    (dat0 V c).flushed 5 t = ((cfg0.win 5).blk t).view.read (Elt Ideal)
      (Cert.Layers.layer0Row (V c main_v27) (V c main_arg0) (V c main_arg5) (V c main_arg7) (V c main_v29)) := by
  show (cfg0.win 5).cut (grid0.coords t) ((dat0 V c).after 5 t) = _
  rw [after0_5]
  unfold out0_5
  rw [View.canon_unit_zero zero_offsets]
  simp only [View.ld_unit_zero (S := S1000x512) zero_offsets, View.ld_unit_zero (S := S512x128) zero_offsets,
    View.ld_unit_zero (S := S1000x128) zero_offsets, View.ld_unit_zero (S := S128x128) zero_offsets,
    View.ld_unit_zero (S := S1x128) zero_offsets]
  obtain ⟨f00, f01, f10, f11, f20, f21, f30, f31, f40, f41, f50, f51⟩ := block_index t
  funext j
  show k0_pay1 (F := Ideal) (iblk0 V c 0 t) (iblk0 V c 2 t) (iblk0 V c 1 t) (iblk0 V c 3 t) (iblk0 V c 4 t) j
    = Cert.Layers.layer0Row (V c main_v27) (V c main_arg0) (V c main_arg5) (V c main_arg7) (V c main_v29)
        (((cfg0.win 5).blk t).view.emb j)
  exact Steps.layer0_block (V c main_v27) (V c main_arg0) (V c main_arg5) (V c main_arg7) (V c main_v29)
    (iblk0 V c 0 t) (iblk0 V c 2 t) (iblk0 V c 1 t) (iblk0 V c 3 t) (iblk0 V c 4 t) (t.val * 1000)
    (fun y => ((cfg0.win 0).blk t).view.emb y) (fun y => ((cfg0.win 1).blk t).view.emb y)
    (fun y => ((cfg0.win 2).blk t).view.emb y) (fun y => ((cfg0.win 3).blk t).view.emb y)
    (fun y => ((cfg0.win 4).blk t).view.emb y) (fun y => ((cfg0.win 5).blk t).view.emb y)
    (fun y => rfl) (fun y => rfl) (fun y => rfl) (fun y => rfl) (fun y => rfl)
    (fun y => by show win0_0.index t (0 : Fin 2) * 1000 + 1 * (y 0).val = _; omega)
    (fun y => by show win0_0.index t (1 : Fin 2) * 512 + 1 * (y 1).val = _; omega)
    (fun y => by show win0_1.index t (0 : Fin 2) * 1000 + 1 * (y 0).val = _; omega)
    (fun y => by show win0_1.index t (1 : Fin 2) * 128 + 1 * (y 1).val = _; omega)
    (fun y => by show win0_2.index t (0 : Fin 2) * 512 + 1 * (y 0).val = _; omega)
    (fun y => by show win0_2.index t (1 : Fin 2) * 128 + 1 * (y 1).val = _; omega)
    (fun y => by show win0_3.index t (0 : Fin 2) * 128 + 1 * (y 0).val = _; omega)
    (fun y => by show win0_3.index t (1 : Fin 2) * 128 + 1 * (y 1).val = _; omega)
    (fun y => by show win0_4.index t (0 : Fin 2) * 1 + 1 * (y 0).val = _; omega)
    (fun y => by show win0_4.index t (1 : Fin 2) * 128 + 1 * (y 1).val = _; omega)
    (fun y => by show win0_5.index t (0 : Fin 2) * 1000 + 1 * (y 0).val = _; omega)
    (fun y => by show win0_5.index t (1 : Fin 2) * 128 + 1 * (y 1).val = _; omega)
    j

/-- An index of the output array is in point t's block iff each coordinate is in the block's range on its axis. -/
theorem mem_block (t : Fin cfg0.N) (i : S10000x128.Idx) :
    i ∈ ((cfg0.win 5).blk t).view.set ↔ ∀ a : Fin 2, win0_5.index t a * S1000x128.size a ≤ (i a).val
      ∧ (i a).val < win0_5.index t a * S1000x128.size a + S1000x128.size a := by
  show i ∈ ((View.whole main_v30).slice (win0_5.rect t)).set ↔ _
  rw [View.set_slice_whole, Rect.mem_set_unit]
  exact Iff.rfl

/-- Every row of the output is in some point's block: row p in block p / 1000. -/
theorem covered (i : S10000x128.Idx) :
    ∃ t : Fin cfg0.N, (cfg0.win 5).flush t = true ∧ i ∈ ((cfg0.win 5).blk t).view.set := by
  have hN : cfg0.N = 10 := N_0
  have hi0 : (i 0).val < 10000 := (i 0).isLt
  have hi1 : (i 1).val < 128 := (i 1).isLt
  let t : Fin cfg0.N := ⟨(i 0).val / 1000, by rw [hN]; omega⟩
  have ht : t.val = (i 0).val / 1000 := rfl
  obtain ⟨-, -, -, -, -, -, -, -, -, -, f50, f51⟩ := block_index t
  refine ⟨t, flush0_5 t, ?_⟩
  rw [mem_block]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 128 ≤ (i 1).val ∧ (i 1).val < win0_5.index t (1 : Fin 2) * 128 + 128; omega

/-- The output array after the last write-back is layer 0 (bias row added last) of the arrays the kernel finds. -/
theorem output_eq (c : Dev nD) :
    (dat0 V c).arrAt 5 cfg0.N
      = Cert.Layers.layer0Row (V c main_v27) (V c main_arg0) (V c main_arg5) (V c main_arg7) (V c main_v29) :=
  (dat0 V c).arrAt_eq_of_cover 5 _ (fun t _ => flushed_eq V c t) covered

end Cert.KernelIdeal.Region0

end
-- ==== Proof.Region1.lean ====
/-
  The second kernel's output array, whole.

  The grid has four by ten points; point t is relation r = t / 10, row block i = t % 10. It takes rows 1000 i … of
  relation r's messages and of the hidden layer, the two weight matrices and the bias row whole, and writes rows
  1000 i … of relation r of the output. A step's stored block is those entries of layer 1 of the arrays as the kernel
  finds them, and the forty blocks cover every (relation, row) pair (entry (r, p, q) is in the block of point
  10 r + p / 1000), so after the last write-back the output array is layer 1 of those arrays.
-/
import proofs.«159219_g781684048166_bridgefix_257_2_alg».proof.Proof.Gen.KernelIdeal.Frame
import proofs.«159219_g781684048166_bridgefix_257_2_alg».proof.Proof.LayerBlocks

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- The block index of every window at every point t = 10 r + i: the stacked windows (messages, output) are at
    relation r, row block i; the hidden layer at row block i; the weights and the bias row at block 0. -/
theorem block_index : ∀ t : Fin cfg1.N,
    win1_0.index t (0 : Fin 3) = t.val / 10 ∧ win1_0.index t (1 : Fin 3) = t.val % 10 ∧ win1_0.index t (2 : Fin 3) = 0
    ∧ win1_1.index t (0 : Fin 2) = t.val % 10 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 10 ∧ win1_5.index t (1 : Fin 3) = t.val % 10 ∧ win1_5.index t (2 : Fin 3) = 0 :=
  (by decide +kernel : ∀ t : Fin grid1.N, _)

/-- What point t writes back is block t of layer 1 (bias row added last) of the arrays the kernel finds. -/
theorem flushed_eq (c : Dev nD) (t : Fin cfg1.N) :
    (dat1 V c).flushed 5 t = ((cfg1.win 5).blk t).view.read (Elt Ideal)
      (Cert.Layers.layer1Row (V c main_v45) (V c main_v30) (V c main_arg9) (V c main_arg11) (V c main_v47)) := by
  show (cfg1.win 5).cut (grid1.coords t) ((dat1 V c).after 5 t) = _
  rw [after1_5]
  unfold out1_5
  rw [View.canon_unit_zero zero_offsets3]
  simp only [View.ld_unit_zero (S := S1x1000x128) zero_offsets3, View.ld_unit_zero (S := S128x128) zero_offsets2,
    View.ld_unit_zero (S := S1000x128) zero_offsets2, View.ld_unit_zero (S := S1x128) zero_offsets2]
  obtain ⟨f00, f01, f02, f10, f11, f20, f21, f30, f31, f40, f41, f50, f51, f52⟩ := block_index t
  have hN : cfg1.N = 40 := N_1
  have ht : t.val < 40 := hN ▸ t.isLt
  funext j
  show k1_pay1 (F := Ideal) (iblk1 V c 0 t) (iblk1 V c 2 t) (iblk1 V c 1 t) (iblk1 V c 3 t) (iblk1 V c 4 t) j
    = Cert.Layers.layer1Row (V c main_v45) (V c main_v30) (V c main_arg9) (V c main_arg11) (V c main_v47)
        (((cfg1.win 5).blk t).view.emb j)
  exact Steps.layer1_block (V c main_v45) (V c main_v30) (V c main_arg9) (V c main_arg11) (V c main_v47)
    (iblk1 V c 0 t) (iblk1 V c 2 t) (iblk1 V c 1 t) (iblk1 V c 3 t) (iblk1 V c 4 t)
    ⟨t.val / 10, by omega⟩ (t.val % 10 * 1000)
    (fun y => ((cfg1.win 0).blk t).view.emb y) (fun y => ((cfg1.win 1).blk t).view.emb y)
    (fun y => ((cfg1.win 2).blk t).view.emb y) (fun y => ((cfg1.win 3).blk t).view.emb y)
    (fun y => ((cfg1.win 4).blk t).view.emb y) (fun y => ((cfg1.win 5).blk t).view.emb y)
    (fun y => rfl) (fun y => rfl) (fun y => rfl) (fun y => rfl) (fun y => rfl)
    (fun y => by
      have h0 : (y 0).val < 1 := (y 0).isLt
      show win1_0.index t (0 : Fin 3) * 1 + 1 * (y 0).val = t.val / 10; omega)
    (fun y => by show win1_0.index t (1 : Fin 3) * 1000 + 1 * (y 1).val = _; omega)
    (fun y => by show win1_0.index t (2 : Fin 3) * 128 + 1 * (y 2).val = _; omega)
    (fun y => by show win1_1.index t (0 : Fin 2) * 1000 + 1 * (y 0).val = _; omega)
    (fun y => by show win1_1.index t (1 : Fin 2) * 128 + 1 * (y 1).val = _; omega)
    (fun y => by show win1_2.index t (0 : Fin 2) * 128 + 1 * (y 0).val = _; omega)
    (fun y => by show win1_2.index t (1 : Fin 2) * 128 + 1 * (y 1).val = _; omega)
    (fun y => by show win1_3.index t (0 : Fin 2) * 128 + 1 * (y 0).val = _; omega)
    (fun y => by show win1_3.index t (1 : Fin 2) * 128 + 1 * (y 1).val = _; omega)
    (fun y => by show win1_4.index t (0 : Fin 2) * 1 + 1 * (y 0).val = _; omega)
    (fun y => by show win1_4.index t (1 : Fin 2) * 128 + 1 * (y 1).val = _; omega)
    (fun y => by
      have h0 : (y 0).val < 1 := (y 0).isLt
      show win1_5.index t (0 : Fin 3) * 1 + 1 * (y 0).val = t.val / 10; omega)
    (fun y => by show win1_5.index t (1 : Fin 3) * 1000 + 1 * (y 1).val = _; omega)
    (fun y => by show win1_5.index t (2 : Fin 3) * 128 + 1 * (y 2).val = _; omega)
    j

/-- An index of the output array is in point t's block iff each coordinate is in the block's range on its axis. -/
theorem mem_block (t : Fin cfg1.N) (i : S4x10000x128.Idx) :
    i ∈ ((cfg1.win 5).blk t).view.set ↔ ∀ a : Fin 3, win1_5.index t a * S1x1000x128.size a ≤ (i a).val
      ∧ (i a).val < win1_5.index t a * S1x1000x128.size a + S1x1000x128.size a := by
  show i ∈ ((View.whole main_v48).slice (win1_5.rect t)).set ↔ _
  rw [View.set_slice_whole, Rect.mem_set_unit]
  exact Iff.rfl

/-- Every entry of the output is in some point's block: entry (r, p, q) in the block of point 10 r + p / 1000. -/
theorem covered (i : S4x10000x128.Idx) :
    ∃ t : Fin cfg1.N, (cfg1.win 5).flush t = true ∧ i ∈ ((cfg1.win 5).blk t).view.set := by
  have hN : cfg1.N = 40 := N_1
  have hi0 : (i 0).val < 4 := (i 0).isLt
  have hi1 : (i 1).val < 10000 := (i 1).isLt
  have hi2 : (i 2).val < 128 := (i 2).isLt
  let t : Fin cfg1.N := ⟨(i 0).val * 10 + (i 1).val / 1000, by rw [hN]; omega⟩
  have ht : t.val = (i 0).val * 10 + (i 1).val / 1000 := rfl
  obtain ⟨-, -, -, -, -, -, -, -, -, -, -, f50, f51, f52⟩ := block_index t
  refine ⟨t, flush1_5 t, ?_⟩
  rw [mem_block]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1000 ≤ (i 1).val ∧ (i 1).val < win1_5.index t (1 : Fin 3) * 1000 + 1000; omega
  | ⟨2, _⟩ => show win1_5.index t (2 : Fin 3) * 128 ≤ (i 2).val ∧ (i 2).val < win1_5.index t (2 : Fin 3) * 128 + 128; omega

/-- The output array after the last write-back is layer 1 (bias row added last) of the arrays the kernel finds. -/
theorem output_eq (c : Dev nD) :
    (dat1 V c).arrAt 5 cfg1.N
      = Cert.Layers.layer1Row (V c main_v45) (V c main_v30) (V c main_arg9) (V c main_arg11) (V c main_v47) :=
  (dat1 V c).arrAt_eq_of_cover 5 _ (fun t _ => flushed_eq V c t) covered

end Cert.KernelIdeal.Region1

end
-- ==== Proof.Boundaries.lean ====
/-
  What the buffers hold between the kernels.

  Before the first kernel the host computes, from the edge lists and the edge weights, a slot per edge (four times the
  target node plus the relation), the weight of each edge divided by the total weight of its slot, the messages (the
  normalised weight times the source node's features) summed per slot and laid out [10000, 512], and the row of the two
  layer-0 biases added. Between the kernels it does the same aggregation of the hidden layer, stacked by relation
  [4, 10000, 128], and the row of the two layer-1 biases. The reference computes the same quantities by the same
  operations on the same arguments, so each of these buffers holds the reference's stage of that name, as a term: no
  gather or scatter is opened. The argument buffers are written by nothing and hold what they were launched with.
-/
import proofs.«159219_g781684048166_bridgefix_257_2_alg».proof.Proof.Gen.KernelIdeal.Frame
import proofs.«159219_g781684048166_bridgefix_257_2_alg».proof.Proof.Gen.ReferenceIdeal.Read

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo
open Cert.ReferenceIdeal.Read (val_main_v2 val_main_v13 val_main_v27 val_main_v37 val_main_v52)

variable (m : (ℓ : Loc nD τ sig) → Buf (Elt Ideal) ℓ) (ρ : Dev nD → PrngReg)

/-! ## After the first stretch of host operations -/

/-- Argument 0 is as launched. -/
theorem first_arg0 (c : Dev nD) : W1 m ρ c (Proc.devRef .tc main_arg0) = m ((c.tc : Thread nD τ).loc main_arg0) := by
  show StableHlo.after hostOps0 (W0 m ρ c) (Proc.devRef .tc main_arg0) = _
  after_results_simp <;> rfl
/-- Argument 5 is as launched. -/
theorem first_arg5 (c : Dev nD) : W1 m ρ c (Proc.devRef .tc main_arg5) = m ((c.tc : Thread nD τ).loc main_arg5) := by
  show StableHlo.after hostOps0 (W0 m ρ c) (Proc.devRef .tc main_arg5) = _
  after_results_simp <;> rfl
/-- Argument 7 is as launched. -/
theorem first_arg7 (c : Dev nD) : W1 m ρ c (Proc.devRef .tc main_arg7) = m ((c.tc : Thread nD τ).loc main_arg7) := by
  show StableHlo.after hostOps0 (W0 m ρ c) (Proc.devRef .tc main_arg7) = _
  after_results_simp <;> rfl
/-- Argument 1 is as launched. -/
theorem first_arg1 (c : Dev nD) : W1 m ρ c (Proc.devRef .tc main_arg1) = m ((c.tc : Thread nD τ).loc main_arg1) := by
  show StableHlo.after hostOps0 (W0 m ρ c) (Proc.devRef .tc main_arg1) = _
  after_results_simp <;> rfl
/-- Argument 9 is as launched. -/
theorem first_arg9 (c : Dev nD) : W1 m ρ c (Proc.devRef .tc main_arg9) = m ((c.tc : Thread nD τ).loc main_arg9) := by
  show StableHlo.after hostOps0 (W0 m ρ c) (Proc.devRef .tc main_arg9) = _
  after_results_simp <;> rfl
/-- Argument 10 is as launched. -/
theorem first_arg10 (c : Dev nD) : W1 m ρ c (Proc.devRef .tc main_arg10) = m ((c.tc : Thread nD τ).loc main_arg10) := by
  show StableHlo.after hostOps0 (W0 m ρ c) (Proc.devRef .tc main_arg10) = _
  after_results_simp <;> rfl
/-- Argument 11 is as launched. -/
theorem first_arg11 (c : Dev nD) : W1 m ρ c (Proc.devRef .tc main_arg11) = m ((c.tc : Thread nD τ).loc main_arg11) := by
  show StableHlo.after hostOps0 (W0 m ρ c) (Proc.devRef .tc main_arg11) = _
  after_results_simp <;> rfl
/-- Argument 12 is as launched. -/
theorem first_arg12 (c : Dev nD) : W1 m ρ c (Proc.devRef .tc main_arg12) = m ((c.tc : Thread nD τ).loc main_arg12) := by
  show StableHlo.after hostOps0 (W0 m ρ c) (Proc.devRef .tc main_arg12) = _
  after_results_simp <;> rfl

set_option maxHeartbeats 4000000 in
/-- The slot of each edge. -/
theorem first_slot (c : Dev nD) : (W1 m ρ c (Proc.devRef .tc main_v2) : (⟨S320000, .i32⟩ : BufTy).Contents (Elt Ideal))
    = val_main_v2 (F := Ideal) (m ((c.tc : Thread nD τ).loc main_arg2)) (m ((c.tc : Thread nD τ).loc main_arg3)) := by
  show StableHlo.after hostOps0 (W0 m ρ c) (Proc.devRef .tc main_v2) = _
  after_results_simp
  rfl

set_option maxHeartbeats 4000000 in
/-- The normalised weight of each edge. -/
theorem first_weight (c : Dev nD) : (W1 m ρ c (Proc.devRef .tc main_v13) : (⟨S320000, .f32⟩ : BufTy).Contents (Elt Ideal))
    = val_main_v13 (F := Ideal) (m ((c.tc : Thread nD τ).loc main_arg2)) (m ((c.tc : Thread nD τ).loc main_arg3)) (m ((c.tc : Thread nD τ).loc main_arg4)) := by
  show StableHlo.after hostOps0 (W0 m ρ c) (Proc.devRef .tc main_v13) = _
  after_results_simp
  rfl

set_option maxHeartbeats 4000000 in
/-- The aggregated messages of layer 0, the four relations side by side. -/
theorem first_messages (c : Dev nD) : (W1 m ρ c (Proc.devRef .tc main_v27) : (⟨S10000x512, .f32⟩ : BufTy).Contents (Elt Ideal))
    = val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps0 (W0 m ρ c) (Proc.devRef .tc main_v27) = _
  after_results_simp
  rfl

/-- The bias row of layer 0: the two bias vectors added, laid out [1, 128]. -/
theorem first_bias_row (c : Dev nD) : (W1 m ρ c (Proc.devRef .tc main_v29) : S1x128.Idx → Ideal .f32)
    = shapeCast S1x128 (addf (F := Ideal) (s := S128) (φ := .f32) (m ((c.tc : Thread nD τ).loc main_arg6)) (m ((c.tc : Thread nD τ).loc main_arg8))) shapeCasts_S128_S1x128 := by
  show StableHlo.after hostOps0 (W0 m ρ c) (Proc.devRef .tc main_v29) = _
  after_results_simp
  rfl

/-! ## At the first kernel's exit: only its output array has changed -/

theorem exit_slot (c : Dev nD) : W2 m ρ c (Proc.devRef .tc main_v2) = W1 m ρ c (Proc.devRef .tc main_v2) :=
  W2_of_ne m ρ c main_v2 (by decide)
theorem exit_weight (c : Dev nD) : W2 m ρ c (Proc.devRef .tc main_v13) = W1 m ρ c (Proc.devRef .tc main_v13) :=
  W2_of_ne m ρ c main_v13 (by decide)
theorem exit_arg1 (c : Dev nD) : W2 m ρ c (Proc.devRef .tc main_arg1) = m ((c.tc : Thread nD τ).loc main_arg1) :=
  (W2_of_ne m ρ c main_arg1 (by decide)).trans (first_arg1 m ρ c)
theorem exit_arg9 (c : Dev nD) : W2 m ρ c (Proc.devRef .tc main_arg9) = m ((c.tc : Thread nD τ).loc main_arg9) :=
  (W2_of_ne m ρ c main_arg9 (by decide)).trans (first_arg9 m ρ c)
theorem exit_arg10 (c : Dev nD) : W2 m ρ c (Proc.devRef .tc main_arg10) = m ((c.tc : Thread nD τ).loc main_arg10) :=
  (W2_of_ne m ρ c main_arg10 (by decide)).trans (first_arg10 m ρ c)
theorem exit_arg11 (c : Dev nD) : W2 m ρ c (Proc.devRef .tc main_arg11) = m ((c.tc : Thread nD τ).loc main_arg11) :=
  (W2_of_ne m ρ c main_arg11 (by decide)).trans (first_arg11 m ρ c)
theorem exit_arg12 (c : Dev nD) : W2 m ρ c (Proc.devRef .tc main_arg12) = m ((c.tc : Thread nD τ).loc main_arg12) :=
  (W2_of_ne m ρ c main_arg12 (by decide)).trans (first_arg12 m ρ c)

/-! ## After the second stretch of host operations -/

set_option maxHeartbeats 4000000 in
/-- The aggregated messages of layer 1, stacked by relation: the reference's stage of the hidden layer the first
    kernel left, whenever that is the reference's hidden layer. -/
theorem second_messages (c : Dev nD)
    (hh : (W2 m ρ c (Proc.devRef .tc main_v30) : (⟨S10000x128, .f32⟩ : BufTy).Contents (Elt Ideal)) = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :
    (W3 m ρ c (Proc.devRef .tc main_v45) : (⟨S4x10000x128, .f32⟩ : BufTy).Contents (Elt Ideal)) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps1 (W2 m ρ c) (Proc.devRef .tc main_v45) = _
  after_results_simp
  rw [hh, exit_slot, exit_weight, exit_arg1, first_slot, first_weight]
  rfl

/-- The bias row of layer 1. -/
theorem second_bias_row (c : Dev nD) : (W3 m ρ c (Proc.devRef .tc main_v47) : S1x128.Idx → Ideal .f32)
    = shapeCast S1x128 (addf (F := Ideal) (s := S128) (φ := .f32) (m ((c.tc : Thread nD τ).loc main_arg10)) (m ((c.tc : Thread nD τ).loc main_arg12))) shapeCasts_S128_S1x128 := by
  show StableHlo.after hostOps1 (W2 m ρ c) (Proc.devRef .tc main_v47) = _
  after_results_simp
  rw [exit_arg10, exit_arg12]
  rfl

/-- The hidden layer is not written again. -/
theorem second_hidden (c : Dev nD) : W3 m ρ c (Proc.devRef .tc main_v30) = W2 m ρ c (Proc.devRef .tc main_v30) := by
  show StableHlo.after hostOps1 (W2 m ρ c) (Proc.devRef .tc main_v30) = _
  after_results_simp <;> rfl

theorem second_arg9 (c : Dev nD) : W3 m ρ c (Proc.devRef .tc main_arg9) = m ((c.tc : Thread nD τ).loc main_arg9) := by
  show StableHlo.after hostOps1 (W2 m ρ c) (Proc.devRef .tc main_arg9) = _
  after_results_simp
  exact exit_arg9 m ρ c
theorem second_arg11 (c : Dev nD) : W3 m ρ c (Proc.devRef .tc main_arg11) = m ((c.tc : Thread nD τ).loc main_arg11) := by
  show StableHlo.after hostOps1 (W2 m ρ c) (Proc.devRef .tc main_arg11) = _
  after_results_simp
  exact exit_arg11 m ρ c

end Cert.KernelIdeal.Boundaries

end
-- ==== Proof.ReferenceLayers.lean ====
/-
  The reference's two dense layers are the layers of the specification.

  The reference computes each layer one array operation at a time: a matrix product, a bias vector laid out as a row
  [1, 128] and repeated down the rows, an addition, a second product, a second bias, and a maximum with zero. Read at
  one entry (p, q), each product is the sum over the contracted coordinate k of row p of the left factor against
  column q of the right one, each repeated bias is the vector's entry q, and the additions and the maximum act entry
  by entry; that is the specification's formula for the entry, term for term.

  The second layer is computed on [40000, 128] arrays: the four relations' messages [4, 10000, 128] are stacked, row
  r · 10000 + p holding relation r at node p, and the hidden layer [10000, 128] is repeated four times, so that row
  r · 10000 + p holds node p for every r; the result is unstacked to [4, 10000, 128]. All that is needed about the
  stacking is division with remainder: a flat position (r · 10000 + p) · 128 + k with r < 4, p < 10000, k < 128
  splits back into r, p and k.
-/
import proofs.«159219_g781684048166_bridgefix_257_2_alg».proof.Proof.Gen.ReferenceIdeal.Read
import proofs.«159219_g781684048166_bridgefix_257_2_alg».proof.Proof.LayerSpec

noncomputable section

namespace Cert.ReferenceIdeal.RefValue

open Cert.ReferenceIdeal Cert.ReferenceIdeal.Read Idealize.ShloMosaic Idealize.ShloMosaic.ValueIdx

/-! ## Layer 0: where each stage reads, at the entry (p, q) -/

/-- The first product reads row p of the left factor at column k, -/
theorem lidx_v28_ix (p : Fin 10000) (q : Fin 128) (k : Fin 512) :
    lidx_main_v28 (ix2 p q) k = ix2 p k :=
  funext fun a => Fin.ext (by match a with | ⟨0, _⟩ => rfl | ⟨1, _⟩ => rfl)

/-- and row k of the right factor at column q. -/
theorem ridx_v28_ix (p : Fin 10000) (q : Fin 128) (k : Fin 512) :
    ridx_main_v28 (ix2 p q) k = ix2 k q :=
  funext fun a => Fin.ext (by match a with | ⟨0, _⟩ => rfl | ⟨1, _⟩ => rfl)

/-- The second product likewise: row p, column k of the node features, -/
theorem lidx_v32_ix (p : Fin 10000) (q : Fin 128) (k : Fin 128) :
    lidx_main_v32 (ix2 p q) k = ix2 p k :=
  funext fun a => Fin.ext (by match a with | ⟨0, _⟩ => rfl | ⟨1, _⟩ => rfl)

/-- and row k, column q of its weight matrix. -/
theorem ridx_v32_ix (p : Fin 10000) (q : Fin 128) (k : Fin 128) :
    ridx_main_v32 (ix2 p q) k = ix2 k q :=
  funext fun a => Fin.ext (by match a with | ⟨0, _⟩ => rfl | ⟨1, _⟩ => rfl)

/-- A bias vector laid out as a row [1, 128] and repeated down the 10000 rows is read, at (p, q), at its entry q. -/
theorem idx_v29_v30_ix (p : Fin 10000) (q : Fin 128) :
    idx_main_v29 (idx_main_v30 (ix2 p q)) = ix1 q :=
  funext fun a => Fin.ext (by match a with | ⟨0, _⟩ => rfl)

/-- The same for the second bias. -/
theorem idx_v34_v35_ix (p : Fin 10000) (q : Fin 128) :
    idx_main_v34 (idx_main_v35 (ix2 p q)) = ix1 q :=
  funext fun a => Fin.ext (by match a with | ⟨0, _⟩ => rfl)

/-- The reference's first layer is layer 0 of the specification. -/
theorem hidden_eq (x0 : (⟨S10000x128, .f32⟩ : BufTy).Contents (Elt Ideal)) (x1 x2 x3 : (⟨S320000, .i32⟩ : BufTy).Contents (Elt Ideal)) (x4 : (⟨S320000, .f32⟩ : BufTy).Contents (Elt Ideal)) (x5 : (⟨S512x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v37 (F := Ideal) x0 x1 x2 x3 x4 x5 x6 x7 x8
      = Cert.Layers.layer0 (val_main_v27 (F := Ideal) x0 x1 x2 x3 x4) x0 x5 x7 x6 x8 := by
  funext i
  obtain ⟨p, q, rfl⟩ : ∃ (p : Fin 10000) (q : Fin 128), i = ix2 p q := ⟨i 0, i 1, eq_ix2 i⟩
  show _ = Cert.Layers.layer0At (val_main_v27 (F := Ideal) x0 x1 x2 x3 x4) x0 x5 x7 x6 x8 p q
  unfold Cert.Layers.layer0At
  rw [val_main_v37_apply, val_main_v36_apply, val_main_v35_apply, val_main_v34_apply, val_main_v33_apply,
    val_main_v32_apply, val_main_v31_apply, val_main_v30_apply, val_main_v29_apply, val_main_v28_apply,
    val_main_call0_v0_apply, val_main_call0_cst_apply, idx_v29_v30_ix, idx_v34_v35_ix]
  simp only [lidx_v28_ix, ridx_v28_ix, lidx_v32_ix, ridx_v32_ix]
  rfl

/-! ## Layer 1: the stacked rows

  The second layer is computed on a [40000, 128] array whose row r · 10000 + p is relation r, node p. -/

/-- Row r · 10000 + p of the stacked array. -/
def row (r : Fin 4) (p : Fin 10000) : Fin 40000 := ⟨r.val * 10000 + p.val, by omega⟩

theorem row_val (r : Fin 4) (p : Fin 10000) : (row r p).val = r.val * 10000 + p.val := rfl

/-- Unstacking: entry (r, p, q) of the result is entry (r · 10000 + p, q) of the stacked array,
    since ((r · 10000 + p) · 128 + q) / 128 = r · 10000 + p and the remainder is q. -/
theorem idx_v67_ix (r : Fin 4) (p : Fin 10000) (q : Fin 128) :
    idx_main_v67 (ix3 r p q) = ix2 (row r p) q :=
  funext fun a => Fin.ext (by
    have hq := q.isLt
    match a with
    | ⟨0, _⟩ => show ((r.val * 10000 + p.val) * 128 + q.val) / 128 = r.val * 10000 + p.val; omega
    | ⟨1, _⟩ => show ((r.val * 10000 + p.val) * 128 + q.val) % 128 = q.val; omega)

/-- Stacking the messages: entry (r · 10000 + p, k) of the stacked messages is entry (r, p, k) of the messages,
    the flat position (r · 10000 + p) · 128 + k split back by 1280000 = 10000 · 128 and by 128. -/
theorem idx_v53_ix (r : Fin 4) (p : Fin 10000) (k : Fin 128) :
    idx_main_v53 (ix2 (row r p) k) = ix3 r p k :=
  funext fun a => Fin.ext (by
    have hp := p.isLt
    have hk := k.isLt
    match a with
    | ⟨0, _⟩ => show ((r.val * 10000 + p.val) * 128 + k.val) / 1280000 = r.val; omega
    | ⟨1, _⟩ => show ((r.val * 10000 + p.val) * 128 + k.val) / 128 % 10000 = p.val; omega
    | ⟨2, _⟩ => show ((r.val * 10000 + p.val) * 128 + k.val) % 128 = k.val; omega)

/-- Tiling the hidden layer four times, last step: entry (r · 10000 + p, k) of the tiled array is entry (r, p, 0, k)
    of the [4, 10000, 1, 128] array, -/
theorem idx_v56_ix (r : Fin 4) (p : Fin 10000) (k : Fin 128) :
    idx_main_v56 (ix2 (row r p) k) = ix4 r p (0 : Fin 1) k :=
  funext fun a => Fin.ext (by
    have hp := p.isLt
    have hk := k.isLt
    match a with
    | ⟨0, _⟩ => show ((r.val * 10000 + p.val) * 128 + k.val) / 1280000 = r.val; omega
    | ⟨1, _⟩ => show ((r.val * 10000 + p.val) * 128 + k.val) / 128 % 10000 = p.val; omega
    | ⟨2, _⟩ => rfl
    | ⟨3, _⟩ => show ((r.val * 10000 + p.val) * 128 + k.val) % 128 = k.val; omega)

/-- which repeats along its first axis the one slice (0, p, 0, k) of the [1, 10000, 1, 128] array, -/
theorem idx_v55_ix (r : Fin 4) (p : Fin 10000) (k : Fin 128) :
    idx_main_v55 (ix4 r p (0 : Fin 1) k) = ix4 (0 : Fin 1) p (0 : Fin 1) k :=
  funext fun a => Fin.ext (by
    match a with
    | ⟨0, _⟩ => rfl
    | ⟨1, _⟩ => rfl
    | ⟨2, _⟩ => rfl
    | ⟨3, _⟩ => rfl)

/-- which is entry (p, k) of the hidden layer. -/
theorem idx_v54_ix (p : Fin 10000) (k : Fin 128) :
    idx_main_v54 (ix4 (0 : Fin 1) p (0 : Fin 1) k) = ix2 p k :=
  funext fun a => Fin.ext (by
    have hk := k.isLt
    match a with
    | ⟨0, _⟩ => show (((0 * 10000 + p.val) * 1 + 0) * 128 + k.val) / 128 = p.val; omega
    | ⟨1, _⟩ => show (((0 * 10000 + p.val) * 1 + 0) * 128 + k.val) % 128 = k.val; omega)

/-- The two products of layer 1 read row R of their left factor at column k and row k of the weights at column q. -/
theorem lidx_v57_ix (R : Fin 40000) (q k : Fin 128) : lidx_main_v57 (ix2 R q) k = ix2 R k :=
  funext fun a => Fin.ext (by match a with | ⟨0, _⟩ => rfl | ⟨1, _⟩ => rfl)

theorem ridx_v57_ix (R : Fin 40000) (q k : Fin 128) : ridx_main_v57 (ix2 R q) k = ix2 k q :=
  funext fun a => Fin.ext (by match a with | ⟨0, _⟩ => rfl | ⟨1, _⟩ => rfl)

theorem lidx_v61_ix (R : Fin 40000) (q k : Fin 128) : lidx_main_v61 (ix2 R q) k = ix2 R k :=
  funext fun a => Fin.ext (by match a with | ⟨0, _⟩ => rfl | ⟨1, _⟩ => rfl)

theorem ridx_v61_ix (R : Fin 40000) (q k : Fin 128) : ridx_main_v61 (ix2 R q) k = ix2 k q :=
  funext fun a => Fin.ext (by match a with | ⟨0, _⟩ => rfl | ⟨1, _⟩ => rfl)

/-- A bias vector laid out as a row and repeated down the 40000 rows is read, at (R, q), at its entry q. -/
theorem idx_v58_v59_ix (R : Fin 40000) (q : Fin 128) : idx_main_v58 (idx_main_v59 (ix2 R q)) = ix1 q :=
  funext fun a => Fin.ext (by match a with | ⟨0, _⟩ => rfl)

theorem idx_v63_v64_ix (R : Fin 40000) (q : Fin 128) : idx_main_v63 (idx_main_v64 (ix2 R q)) = ix1 q :=
  funext fun a => Fin.ext (by match a with | ⟨0, _⟩ => rfl)

/-- The stacked messages at row r · 10000 + p are relation r's messages at node p. -/
theorem stacked_messages_at (x0 : (⟨S10000x128, .f32⟩ : BufTy).Contents (Elt Ideal)) (x1 x2 x3 : (⟨S320000, .i32⟩ : BufTy).Contents (Elt Ideal)) (x4 : (⟨S320000, .f32⟩ : BufTy).Contents (Elt Ideal)) (x5 : (⟨S512x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (r : Fin 4) (p : Fin 10000) (k : Fin 128) :
    val_main_v53 (F := Ideal) x0 x1 x2 x3 x4 x5 x6 x7 x8 (ix2 (row r p) k)
      = val_main_v52 (F := Ideal) x0 x1 x2 x3 x4 x5 x6 x7 x8 (ix3 r p k) := by
  rw [val_main_v53_apply, idx_v53_ix]

/-- The tiled hidden layer at row r · 10000 + p is the hidden layer at node p, whatever the relation r. -/
theorem tiled_hidden_at (x0 : (⟨S10000x128, .f32⟩ : BufTy).Contents (Elt Ideal)) (x1 x2 x3 : (⟨S320000, .i32⟩ : BufTy).Contents (Elt Ideal)) (x4 : (⟨S320000, .f32⟩ : BufTy).Contents (Elt Ideal)) (x5 : (⟨S512x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (r : Fin 4) (p : Fin 10000) (k : Fin 128) :
    val_main_v56 (F := Ideal) x0 x1 x2 x3 x4 x5 x6 x7 x8 (ix2 (row r p) k)
      = val_main_v37 (F := Ideal) x0 x1 x2 x3 x4 x5 x6 x7 x8 (ix2 p k) := by
  rw [val_main_v56_apply, idx_v56_ix, val_main_v55_apply, idx_v55_ix, val_main_v54_apply, idx_v54_ix]

/-- The reference's second layer is layer 1 of the specification. -/
theorem result_eq (x0 : (⟨S10000x128, .f32⟩ : BufTy).Contents (Elt Ideal)) (x1 x2 x3 : (⟨S320000, .i32⟩ : BufTy).Contents (Elt Ideal)) (x4 : (⟨S320000, .f32⟩ : BufTy).Contents (Elt Ideal)) (x5 : (⟨S512x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    val_main_v67 (F := Ideal) x0 x1 x2 x3 x4 x5 x6 x7 x8 x9 x10 x11 x12
      = Cert.Layers.layer1 (val_main_v52 (F := Ideal) x0 x1 x2 x3 x4 x5 x6 x7 x8)
          (val_main_v37 (F := Ideal) x0 x1 x2 x3 x4 x5 x6 x7 x8) x9 x11 x10 x12 := by
  funext i
  obtain ⟨r, p, q, rfl⟩ : ∃ (r : Fin 4) (p : Fin 10000) (q : Fin 128), i = ix3 r p q := ⟨i 0, i 1, i 2, eq_ix3 i⟩
  show _ = Cert.Layers.layer1At (val_main_v52 (F := Ideal) x0 x1 x2 x3 x4 x5 x6 x7 x8)
    (val_main_v37 (F := Ideal) x0 x1 x2 x3 x4 x5 x6 x7 x8) x9 x11 x10 x12 r p q
  unfold Cert.Layers.layer1At
  rw [val_main_v67_apply, idx_v67_ix, val_main_v66_apply, val_main_v65_apply, val_main_v64_apply, val_main_v63_apply,
    val_main_v62_apply, val_main_v61_apply, val_main_v60_apply, val_main_v59_apply, val_main_v58_apply,
    val_main_v57_apply, val_main_call1_v0_apply, val_main_call1_cst_apply, idx_v58_v59_ix, idx_v63_v64_ix]
  simp only [lidx_v57_ix, ridx_v57_ix, lidx_v61_ix, ridx_v61_ix, stacked_messages_at, tiled_hidden_at]
  rfl

end Cert.ReferenceIdeal.RefValue

end
-- ==== Proof.KernelRun.lean ====
/-
  The idealized kernel's run with its result named.

  The program is four segments: host operations, the first kernel over its ten row blocks, host operations, the second
  kernel over its four-by-ten blocks. Every weakly fair execution ends, without a fault, in a state whose unscoped
  buffers hold the contents of the last segment boundary. The frame claim reads the thirteen argument buffers there and
  finds them as launched; read at the result buffer, the same final state gives the result array as the last
  boundary's contents of that buffer, which is what the second kernel's write-backs leave in its output array.
-/
import proofs.«159219_g781684048166_bridgefix_257_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second kernel's output array. -/
theorem result_is_output : Pipeline.arrRef spec1 5 = main_v48 := rfl

set_option backward.isDefEq.respectTransparency.types false in
/-- Every weakly fair execution of the program terminates, nothing faulting, with the result buffer at the last
    boundary's contents and the thirteen arguments as launched. -/
theorem run_result : θ_run defs (onTc (τ := τ) (main (F := F))) ⟨m, fun _ => 0, ρ⟩ (fun r => ∀ c : Dev nD,
      r.2.mem ((c.tc : Thread nD τ).loc main_v48) = W4 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v48 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.RunValue

end
-- ==== Proof.KernelValue.lean ====
/-
  The idealized kernel's result is the reference's last stage of the arguments.

  The first kernel's output array is layer 0 of the buffers the first stretch of host operations left: the aggregated
  messages, the node features, the two weight matrices and the row of the two biases added. With the row read entry by
  entry and the additions regrouped, that is the reference's hidden layer. The second stretch aggregates that hidden
  layer exactly as the reference does, the second kernel's output array is layer 1 of what it left, and with the
  additions regrouped again that is the reference's result before its last reshape undone, stacked by relation.
-/
import proofs.«159219_g781684048166_bridgefix_257_2_alg».proof.Proof.Region0
import proofs.«159219_g781684048166_bridgefix_257_2_alg».proof.Proof.Region1
import proofs.«159219_g781684048166_bridgefix_257_2_alg».proof.Proof.Boundaries
import proofs.«159219_g781684048166_bridgefix_257_2_alg».proof.Proof.ReferenceLayers
import proofs.«159219_g781684048166_bridgefix_257_2_alg».proof.Proof.KernelRun

set_option maxRecDepth 16384

noncomputable section

namespace Cert.KernelIdeal.ResultValue

open Cert.KernelIdeal Cert.KernelIdeal.Gen
open Idealize.ShloMosaic Idealize.ShloMosaic.TcCoe Idealize.ShloMosaic.ValueIdx Idealize.SL.Sem
open Cert.ReferenceIdeal.Read (val_main_v27 val_main_v37 val_main_v52 val_main_v67)

variable (m : (ℓ : Loc nD τ sig) → Buf (Elt Ideal) ℓ) (ρ : Dev nD → PrngReg)

/-- The sum of two length-128 vectors laid out as a [1, 128] row holds, at column q, the sum of their entries q. -/
theorem bias_row_at (bl bs : FVec Ideal S128 .f32) (h : S128.ShapeCasts S1x128) (q : Fin 128) :
    shapeCast S1x128 (addf bl bs) h (ix2 0 q) = bl (ix1 q) + bs (ix1 q) :=
  (shapeCast_apply (addf bl bs) h (ix2 0 q) (ix1 q) (by
    rw [Shape.rowMajor_val_one, Shape.rowMajor_val_two]
    show q.val = (0 : Fin 1).val * 128 + q.val
    simp)).trans (addf_apply bl bs (ix1 q))

/-- At the first kernel's exit its output array holds the reference's hidden layer. -/
theorem hidden (c : Dev nD) :
    (W2 m ρ c (Proc.devRef .tc main_v30) : (⟨S10000x128, .f32⟩ : BufTy).Contents (Elt Ideal)) = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W2_arr m ρ c 5).trans ?_
  refine (Region0.output_eq (V1 m ρ) c).trans ?_
  show Cert.Layers.layer0Row (W1 m ρ c (Proc.devRef .tc main_v27)) (W1 m ρ c (Proc.devRef .tc main_arg0))
    (W1 m ρ c (Proc.devRef .tc main_arg5)) (W1 m ρ c (Proc.devRef .tc main_arg7)) (W1 m ρ c (Proc.devRef .tc main_v29)) = _
  rw [Boundaries.first_messages, Boundaries.first_arg0, Boundaries.first_arg5, Boundaries.first_arg7,
    Boundaries.first_bias_row]
  rw [Cert.Layers.layer0Row_eq _ _ _ _ _ (m ((c.tc : Thread nD τ).loc main_arg6)) (m ((c.tc : Thread nD τ).loc main_arg8)) (fun q => bias_row_at _ _ _ q)]
  exact (Cert.ReferenceIdeal.RefValue.hidden_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))).symm

/-- At the second kernel's exit its output array holds the reference's result. -/
theorem result (c : Dev nD) :
    (W4 m ρ c (Proc.devRef .tc main_v48) : (⟨S4x10000x128, .f32⟩ : BufTy).Contents (Elt Ideal)) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W4_arr m ρ c 5).trans ?_
  refine (Region1.output_eq (V3 m ρ) c).trans ?_
  show Cert.Layers.layer1Row (W3 m ρ c (Proc.devRef .tc main_v45)) (W3 m ρ c (Proc.devRef .tc main_v30))
    (W3 m ρ c (Proc.devRef .tc main_arg9)) (W3 m ρ c (Proc.devRef .tc main_arg11)) (W3 m ρ c (Proc.devRef .tc main_v47)) = _
  rw [Boundaries.second_messages m ρ c (hidden m ρ c), Boundaries.second_hidden, hidden, Boundaries.second_arg9,
    Boundaries.second_arg11, Boundaries.second_bias_row]
  rw [Cert.Layers.layer1Row_eq _ _ _ _ _ (m ((c.tc : Thread nD τ).loc main_arg10)) (m ((c.tc : Thread nD τ).loc main_arg12)) (fun q => bias_row_at _ _ _ q)]
  exact (Cert.ReferenceIdeal.RefValue.result_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))).symm

/-- Every weakly fair execution of the idealized kernel terminates, nothing faulting, with the result array at the
    reference's last stage of the arguments and the arguments as launched. -/
theorem run : θ_run defs (onTc (τ := τ) (main (F := Ideal))) ⟨m, fun _ => 0, ρ⟩ (fun r => ∀ c : Dev nD,
      r.2.mem ((c.tc : Thread nD τ).loc main_v48) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result m ρ c), (h c).2⟩) (RunValue.run_result m ρ)

end Cert.KernelIdeal.ResultValue

end
-- ==== Proof.lean ====
/-
  A two-layer relational graph network: the kernel against its reference, over the extended reals.

  Both programs compute, from the edge lists and edge weights, a normalised weight per edge, aggregate the weighted
  source features per (target node, relation) slot, and apply a dense layer relu (U · W_l + b_l + X · W_s + b_s); then
  aggregate the hidden layer the same way and apply a second dense layer per relation. The reference does everything on
  the host. The kernel does the aggregations on the host by the same operations, and each dense layer in a kernel over
  blocks of 1000 rows, with the two biases added first into one row and that row added after the two products.

  Read over the extended reals the kernel's result array and the reference's are the same function of the arguments:
  the aggregation stages are the same terms; a block of rows of a matrix product is the product of that block of rows;
  the blocks of each kernel cover its output; and (P + Q) + (a + b) = ((P + a) + Q) + b, which needs only that addition
  is commutative and associative, so nothing is assumed finite and the precondition is not used. The three frame claims
  are the generated frames (the reference's is its generated run with the result dropped), and the idealization rewrote
  no operation, so there is nothing to preserve.
-/
import proofs.«159219_g781684048166_bridgefix_257_2_alg».proof.Defs
import proofs.«159219_g781684048166_bridgefix_257_2_alg».proof.Proof.Gen.Kernel
import proofs.«159219_g781684048166_bridgefix_257_2_alg».proof.Proof.Gen.Kernel.Skeleton
import proofs.«159219_g781684048166_bridgefix_257_2_alg».proof.Proof.Gen.Kernel.Launch
import proofs.«159219_g781684048166_bridgefix_257_2_alg».proof.Proof.Gen.Kernel.Points
import proofs.«159219_g781684048166_bridgefix_257_2_alg».proof.Proof.Gen.Kernel.Frame
import proofs.«159219_g781684048166_bridgefix_257_2_alg».proof.Proof.Gen.KernelIdeal
import proofs.«159219_g781684048166_bridgefix_257_2_alg».proof.Proof.Gen.KernelIdeal.Skeleton
import proofs.«159219_g781684048166_bridgefix_257_2_alg».proof.Proof.Gen.KernelIdeal.Launch
import proofs.«159219_g781684048166_bridgefix_257_2_alg».proof.Proof.Gen.KernelIdeal.Points
import proofs.«159219_g781684048166_bridgefix_257_2_alg».proof.Proof.Gen.KernelIdeal.Frame
import proofs.«159219_g781684048166_bridgefix_257_2_alg».proof.Proof.Gen.ReferenceIdeal
import proofs.«159219_g781684048166_bridgefix_257_2_alg».proof.Proof.Gen.ReferenceIdeal.Run
import proofs.«159219_g781684048166_bridgefix_257_2_alg».proof.Proof.Gen.ReferenceIdeal.Read
import proofs.«159219_g781684048166_bridgefix_257_2_alg».proof.Proof.Gen.Pre_finite_inputs
import proofs.«159219_g781684048166_bridgefix_257_2_alg».proof.Proof.KernelValue
import Idealize.ShloMosaic.Adequacy
import Idealize.ShloMosaic.Init

set_option maxRecDepth 16384

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage of the arguments in
    their result arrays: the kernel by its two layers read block by block, the reference by its own run. -/
theorem algebraic : Cert.algebraic_KernelIdeal_ReferenceIdeal := by
  intro m ρ m' ρ' _ hagree
  refine ⟨fun c => Cert.ReferenceIdeal.Read.val_main_v67 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v67_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
